-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S2x4096x4096 : Shape := ⟨3, ![2, 4096, 4096]⟩
abbrev S128x64 : Shape := ⟨2, ![128, 64]⟩
abbrev S64 : Shape := ⟨1, ![64]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S2x4096x4096 : S_.BroadcastsInDim S2x4096x4096 (![] : Fin 0 → Fin S2x4096x4096.rank)
  reducesTo_S2x4096x4096_S_d0_1_2 : S2x4096x4096.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S4096x256 .f32) (main_arg1 : FVec F S2x4096x4096 .f32) (main_arg2 : FVec F S128x64 .f32) (main_arg3 : FVec F S64 .f32) (main_arg4 : FVec F S128x64 .f32) (main_arg5 : FVec F S64 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S2x4096x4096 .f32 := Host.absf main_arg1
  let main_cst_0 : FVec F S_ .f32 := constant S_ .f32 0x7F800000#32
  let main_v5 : FVec F S2x4096x4096 .f32 := broadcastInDim S2x4096x4096 ![] bcast_S_S2x4096x4096 main_cst_0
  let main_v6 : IVec S2x4096x4096 1 := cmpf .olt main_v4 main_v5
  let main_c_1 : IVec S_ 1 := constantI S_ 1 1#1
  let main_v7 : IVec S_ 1 := (fun x v => Host.reduce IntOp.andi x v reducesTo_S2x4096x4096_S_d0_1_2 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S4096x256 : Shape := ⟨2, ![4096, 256]⟩
abbrev S2x4096x4096 : Shape := ⟨3, ![2, 4096, 4096]⟩
abbrev S128x64 : Shape := ⟨2, ![128, 64]⟩
abbrev S64 : Shape := ⟨1, ![64]⟩
abbrev S1x128x64 : Shape := ⟨3, ![1, 128, 64]⟩
abbrev S2x128x64 : Shape := ⟨3, ![2, 128, 64]⟩
abbrev S1x64 : Shape := ⟨2, ![1, 64]⟩
abbrev S2x64 : Shape := ⟨2, ![2, 64]⟩
abbrev S2x1x64 : Shape := ⟨3, ![2, 1, 64]⟩
abbrev S4096x64 : Shape := ⟨2, ![4096, 64]⟩
abbrev S2x256x2048 : Shape := ⟨3, ![2, 256, 2048]⟩
abbrev S256x64 : Shape := ⟨2, ![256, 64]⟩
abbrev S2x4096x64 : Shape := ⟨3, ![2, 4096, 64]⟩
abbrev S4096x128 : Shape := ⟨2, ![4096, 128]⟩
abbrev S1x1x64 : Shape := ⟨3, ![1, 1, 64]⟩
abbrev S1x4096x64 : Shape := ⟨3, ![1, 4096, 64]⟩
abbrev S1x256x2048 : Shape := ⟨3, ![1, 256, 2048]⟩
abbrev S256x2048 : Shape := ⟨2, ![256, 2048]⟩
abbrev S1x2048x64 : Shape := ⟨3, ![1, 2048, 64]⟩
abbrev S2048x64 : Shape := ⟨2, ![2048, 64]⟩

abbrev nBuf : Space → Nat
  | .hbm => 14
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S2x4096x4096, .f32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S1x128x64, .f32⟩
  | .hbm, ⟨7, _⟩ => ⟨S1x128x64, .f32⟩
  | .hbm, ⟨8, _⟩ => ⟨S2x128x64, .f32⟩
  | .hbm, ⟨9, _⟩ => ⟨S1x64, .f32⟩
  | .hbm, ⟨10, _⟩ => ⟨S1x64, .f32⟩
  | .hbm, ⟨11, _⟩ => ⟨S2x64, .f32⟩
  | .hbm, ⟨12, _⟩ => ⟨S2x1x64, .f32⟩
  | .hbm, ⟨13, _⟩ => ⟨S4096x64, .f32⟩
  | .local _ .vmem, ⟨0, _⟩ => ⟨S4096x256, .f32⟩
  | .local _ .vmem, ⟨1, _⟩ => ⟨S2x128x64, .f32⟩
  | .local _ .vmem, ⟨2, _⟩ => ⟨S2x1x64, .f32⟩
  | .local _ .vmem, ⟨3, _⟩ => ⟨S2x256x2048, .f32⟩
  | .local _ .vmem, ⟨4, _⟩ => ⟨S2x256x2048, .f32⟩
  | .local _ .vmem, ⟨5, _⟩ => ⟨S256x64, .f32⟩
  | .local _ .vmem, ⟨6, _⟩ => ⟨S256x64, .f32⟩
  | .local _ .vmem, ⟨7, _⟩ => ⟨S2x4096x64, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 2], ![false, false]⟩

def k0_off1 (i : grid0.Coords) : Fin 3 → Nat :=
  let c0_4 : Index := 0#32
  let arg1 : BitVec 32 := BitVec.ofNat 32 (i 1).val
  let c2048_i32 : BitVec 32 := 2048#32
  let v5 : BitVec 32 := Scalar.muli arg1 c2048_i32
  let v8 : Index := Scalar.indexCast v5
  let c0_5 : Index := 0#32
  ![0, v8.toNat, 0]
def k0_off2 (i : grid0.Coords) : Fin 3 → Nat :=
  let c1_8 : Index := 1#32
  let arg1 : BitVec 32 := BitVec.ofNat 32 (i 1).val
  let c2048_i32 : BitVec 32 := 2048#32
  let v5 : BitVec 32 := Scalar.muli arg1 c2048_i32
  let v14 : Index := Scalar.indexCast v5
  let c0_9 : Index := 0#32
  ![1, v14.toNat, 0]
def k0_cond2 (i : grid0.Coords) : BitVec 1 :=
  let arg1 : BitVec 32 := BitVec.ofNat 32 (i 1).val
  let c0_i32_11 : BitVec 32 := 0#32
  let v19 : BitVec 1 := Scalar.cmpi .eq arg1 c0_i32_11
  let v20 : BitVec 32 := Scalar.extui v19
  let c0_i32_12 : BitVec 32 := 0#32
  let v21 : BitVec 1 := Scalar.cmpi .ne v20 c0_i32_12
  v21

def k0_cond3 (i : grid0.Coords) : BitVec 1 :=
  let arg1 : BitVec 32 := BitVec.ofNat 32 (i 1).val
  let c0_i32_13 : BitVec 32 := 0#32
  let v22 : BitVec 1 := Scalar.cmpi .ne arg1 c0_i32_13
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2x128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S128x64_S1x128x64_1_2 : S128x64.BroadcastsInDim S1x128x64 (![1, 2] : Fin 2 → Fin S1x128x64.rank)
  concatenates_S1x128x64_S1x128x64_S2x128x64_d0 : Shape.Concatenates [S1x128x64, S1x128x64] S2x128x64 0
  bcast_S64_S1x64_1 : S64.BroadcastsInDim S1x64 (![1] : Fin 1 → Fin S1x64.rank)
  concatenates_S1x64_S1x64_S2x64_d0 : Shape.Concatenates [S1x64, S1x64] S2x64 0
  shapeCasts_S2x64_S2x1x64 : S2x64.ShapeCasts S2x1x64
  inb_S4096x256_S4096x256_0_0 : ∀ a, (![0, 0] : Fin 2 → Nat) a + S4096x256.size a ≤ S4096x256.size a
  h_S4096x256 : 0 < S4096x256.numel
  slices_S4096x256_o0_0_S4096x128 : S4096x256.Slices ![0, 0] S4096x128
  inb_S2x128x64_S1x128x64_0_0_0 : ∀ a, (![0, 0, 0] : Fin 3 → Nat) a + S1x128x64.size a ≤ S2x128x64.size a
  h_S1x128x64 : 0 < S1x128x64.numel
  shapeCasts_S1x128x64_S128x64 : S1x128x64.ShapeCasts S128x64
  inb_S2x1x64_S1x1x64_0_0_0 : ∀ a, (![0, 0, 0] : Fin 3 → Nat) a + S1x1x64.size a ≤ S2x1x64.size a
  h_S1x1x64 : 0 < S1x1x64.numel
  shapeCasts_S1x1x64_S1x64 : S1x1x64.ShapeCasts S1x64
  broadcasts_S1x64_S4096x64 : S1x64.Broadcasts S4096x64
  inb_S2x4096x64_S1x4096x64_0_0_0 : ∀ a, (![0, 0, 0] : Fin 3 → Nat) a + S1x4096x64.size a ≤ S2x4096x64.size a
  h_S1x4096x64 : 0 < S1x4096x64.numel
  shapeCasts_S1x4096x64_S4096x64 : S1x4096x64.ShapeCasts S4096x64
  shapeCasts_S4096x64_S1x4096x64 : S4096x64.ShapeCasts S1x4096x64
  slices_S4096x256_o0_128_S4096x128 : S4096x256.Slices ![0, 128] S4096x128
  inb_S2x128x64_S1x128x64_1_0_0 : ∀ a, (![1, 0, 0] : Fin 3 → Nat) a + S1x128x64.size a ≤ S2x128x64.size a
  inb_S2x1x64_S1x1x64_1_0_0 : ∀ a, (![1, 0, 0] : Fin 3 → Nat) a + S1x1x64.size a ≤ S2x1x64.size a
  inb_S2x4096x64_S1x4096x64_1_0_0 : ∀ a, (![1, 0, 0] : Fin 3 → Nat) a + S1x4096x64.size a ≤ S2x4096x64.size a
  inb_S2x256x2048_S1x256x2048_0_0_0 : ∀ a, (![0, 0, 0] : Fin 3 → Nat) a + S1x256x2048.size a ≤ S2x256x2048.size a
  h_S1x256x2048 : 0 < S1x256x2048.numel
  shapeCasts_S1x256x2048_S256x2048 : S1x256x2048.ShapeCasts S256x2048
  h_S1x2048x64 : 0 < S1x2048x64.numel
  shapeCasts_S1x2048x64_S2048x64 : S1x2048x64.ShapeCasts S2048x64
  inb_S2x256x2048_S1x256x2048_1_0_0 : ∀ a, (![1, 0, 0] : Fin 3 → Nat) a + S1x256x2048.size a ≤ S2x256x2048.size a
  inb_S256x64_S256x64_0_0 : ∀ a, (![0, 0] : Fin 2 → Nat) a + S256x64.size a ≤ S256x64.size a
  h_S256x64 : 0 < S256x64.numel
  shapeCasts_S256x64_S256x64 : S256x64.ShapeCasts S256x64
  dot_S4096x128_S128x64_S4096x64_1_0_0_1_n_n_wf : DotDims.WF S4096x128 S128x64 S4096x64 [1] [0] [0] [1] [] []
  dot_S256x2048_S2048x64_S256x64_1_0_0_1_n_n_wf : DotDims.WF S256x2048 S2048x64 S256x64 [1] [0] [0] [1] [] []
  hrank0 : 0 < grid0.rank
  k0_off1_inb : ∀ i : grid0.Coords, ∀ a, (k0_off1 i) a + S1x2048x64.size a ≤ S2x4096x64.size a
  k0_off2_inb : ∀ i : grid0.Coords, ∀ a, (k0_off2 i) a + S1x2048x64.size a ≤ S2x4096x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128x64.size a ≤ S2x128x64.size a
  hwx0_1 : ∀ i : grid0.Coords, EltTy.bits .f32 = 32 ∨ (Rect.block (s := S2x128x64) S2x128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x1x64.size a ≤ S2x1x64.size a
  hwx0_2 : ∀ i : grid0.Coords, EltTy.bits .f32 = 32 ∨ (Rect.block (s := S2x1x64) S2x1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x256x2048.size a ≤ S2x4096x4096.size a
  hwx0_3 : ∀ i : grid0.Coords, EltTy.bits .f32 = 32 ∨ (Rect.block (s := S2x4096x4096) S2x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S4096x64.size a
  hwx0_4 : ∀ i : grid0.Coords, EltTy.bits .f32 = 32 ∨ (Rect.block (s := S4096x64) S256x64.size (cc0_transform_4 i) (hinb0_4 i)).WholeWords (EltTy.packing .f32)

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2x128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2x1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S2x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) && !(k0_cond3 i == 1#1) | ⟨_ + 5, h⟩ => absurd h (Nat.not_lt.2 (Nat.le_add_left _ _))

class Facts : Prop extends Facts₀ where

variable [Facts]
-- ==== ReferenceIdeal.lean ====
abbrev S4096x256 : Shape := ⟨2, ![4096, 256]⟩
abbrev S2x4096x4096 : Shape := ⟨3, ![2, 4096, 4096]⟩
abbrev S128x64 : Shape := ⟨2, ![128, 64]⟩
abbrev S64 : Shape := ⟨1, ![64]⟩
abbrev S4096x128 : Shape := ⟨2, ![4096, 128]⟩
abbrev S4096x64 : Shape := ⟨2, ![4096, 64]⟩
abbrev S1x64 : Shape := ⟨2, ![1, 64]⟩
abbrev S1x4096x4096 : Shape := ⟨3, ![1, 4096, 4096]⟩
abbrev S4096x4096 : Shape := ⟨2, ![4096, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S2x4096x4096, .f32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S4096x128, .f32⟩
  | .hbm, ⟨7, _⟩ => ⟨S4096x128, .f32⟩
  | .hbm, ⟨8, _⟩ => ⟨S4096x64, .f32⟩
  | .hbm, ⟨9, _⟩ => ⟨S1x64, .f32⟩
  | .hbm, ⟨10, _⟩ => ⟨S4096x64, .f32⟩
  | .hbm, ⟨11, _⟩ => ⟨S4096x64, .f32⟩
  | .hbm, ⟨12, _⟩ => ⟨S4096x64, .f32⟩
  | .hbm, ⟨13, _⟩ => ⟨S1x64, .f32⟩
  | .hbm, ⟨14, _⟩ => ⟨S4096x64, .f32⟩
  | .hbm, ⟨15, _⟩ => ⟨S4096x64, .f32⟩
  | .hbm, ⟨16, _⟩ => ⟨S1x4096x4096, .f32⟩
  | .hbm, ⟨17, _⟩ => ⟨S4096x4096, .f32⟩
  | .hbm, ⟨18, _⟩ => ⟨S1x4096x4096, .f32⟩
  | .hbm, ⟨19, _⟩ => ⟨S4096x4096, .f32⟩
  | .hbm, ⟨20, _⟩ => ⟨S4096x64, .f32⟩
  | .hbm, ⟨21, _⟩ => ⟨S4096x64, .f32⟩
  | .hbm, ⟨22, _⟩ => ⟨S4096x64, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  slices_S4096x256_S4096x128_0_0 : S4096x256.Slices ![0, 0] S4096x128
  slices_S4096x256_S4096x128_0_128 : S4096x256.Slices ![0, 128] S4096x128
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  slices_S2x4096x4096_S1x4096x4096_0_0_0 : S2x4096x4096.Slices ![0, 0, 0] S1x4096x4096
  shapeCasts_S1x4096x4096_S4096x4096 : S1x4096x4096.ShapeCasts S4096x4096
  slices_S2x4096x4096_S1x4096x4096_1_0_0 : S2x4096x4096.Slices ![1, 0, 0] S1x4096x4096
  dot_S4096x128_S128x64_S4096x64_1_0_0_1_n_n_wf : DotDims.WF S4096x128 S128x64 S4096x64 [1] [0] [0] [1] [] []
  dot_S4096x4096_S4096x64_S4096x64_1_0_0_1_n_n_wf : DotDims.WF S4096x4096 S4096x64 S4096x64 [1] [0] [0] [1] [] []

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.KernelCases.lean ====
/-
  The kernel body's three control cases over the 16 x 2 grid, decided in closed form from the linear point number
  t = 2 i + j, and the memrefs the body is called with.

  first  : i = 0 and j = 0 (t = 0): both hidden projections are written to the scratch, then the point's products stored;
  fresh  : j = 0 (t even): the products of the point's adjacency block with the first 2048 scratch rows are stored;
  adding : j = 1 (t odd): the products with the last 2048 scratch rows are added to what the point before left.
  Exactly one of "fresh" and "adding" holds at every point, so the output window is never idle.
-/
import proofs.«163337_g50706383897208_cont_sun_m_271_35_alg».proof.Proof.Gen.Kernel.Frame
import proofs.«163337_g50706383897208_cont_sun_m_271_35_alg».proof.Proof.Gen.Kernel.Skeleton
import proofs.«163337_g50706383897208_cont_sun_m_271_35_alg».proof.Proof.Gen.Kernel.Points
import proofs.«163337_g50706383897208_cont_sun_m_271_35_alg».proof.Proof.Gen.Kernel.Launch

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- The condition of the first conditional (write the hidden projections): both coordinates zero. -/
abbrev condFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hFirst : ∀ t : Fin cfg0.N, condFirst (grid0.coords t) ↔ t.val % 32 = 0 :=
  (by decide +kernel : ∀ t : Fin grid0.N, condFirst (grid0.coords t) ↔ t.val % 32 = 0)

/-- The condition of the second conditional (store the products): the contraction coordinate is zero. -/
abbrev condFresh (i : grid0.Coords) : Prop := k0_cond2 i = 1#1
theorem hFresh : ∀ t : Fin cfg0.N, condFresh (grid0.coords t) ↔ t.val % 2 = 0 :=
  (by decide +kernel : ∀ t : Fin grid0.N, condFresh (grid0.coords t) ↔ t.val % 2 = 0)

/-- The condition of the third conditional (add the products): the contraction coordinate is not zero. -/
abbrev condAdding (i : grid0.Coords) : Prop := k0_cond3 i = 1#1
theorem hAdding : ∀ t : Fin cfg0.N, condAdding (grid0.coords t) ↔ t.val % 2 = 1 :=
  (by decide +kernel : ∀ t : Fin grid0.N, condAdding (grid0.coords t) ↔ t.val % 2 = 1)

/-- No window is idle at any point: the inputs never are, and the output is stored into under one of two
    complementary conditions. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel

/-- The scratch rows a point reads start at row 2048 j of each of the two hidden matrices. -/
theorem off1_eq : ∀ t : Fin cfg0.N, k0_off1 (grid0.coords t) = ![0, 2048 * (t.val % 2), 0] :=
  (by decide +kernel : ∀ t : Fin grid0.N, k0_off1 (grid0.coords t) = ![0, 2048 * (t.val % 2), 0])
theorem off2_eq : ∀ t : Fin cfg0.N, k0_off2 (grid0.coords t) = ![1, 2048 * (t.val % 2), 0] :=
  (by decide +kernel : ∀ t : Fin grid0.N, k0_off2 (grid0.coords t) = ![1, 2048 * (t.val % 2), 0])

/-- Each window's current staging memref at point `t`, as the pipeline passes it, and its wholeness. -/
abbrev ms0 (t : Fin cfg0.N) : Memref sig .tc .vmem S4096x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x128x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x1x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2x256x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x64 .f32 := win0_4.stage (cfg0.slots t 4)
abbrev hs4 (t : Fin cfg0.N) : (ms4 t).IsWhole := hstage0_4 ((cfg0.slots t 4).cast nbuf0_4)
/-- The scratch operand: a whole buffer of the kernel's own holding the two hidden matrices. -/
abbrev scM : Memref sig .tc .vmem S2x4096x64 .f32 := Memref.whole cc0_scratch0

/-- The region invariant of the class with the scratch operand as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Body

end
-- ==== Proof.KernelRunFirst.lean ====
/-
  The body at the grid's first point: with the inputs' staging memrefs at their blocks and the output's and the scratch at
  anything, it ends with the inputs as they were, the scratch rewritten by two stores (the two hidden projections, one per
  leading index) and the output's memref rewritten by one store of the point's products. The stored pieces are the
  witnesses the symbolic run finds.
-/
import proofs.«163337_g50706383897208_cont_sun_m_271_35_alg».proof.Proof.KernelCases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen
variable {F : FTy → Type} [FloatOps F]
local notation "𝕄" => MT nD τ sig Unit (Elt F) ℕ (UR sig nD τ) ℕ

set_option maxHeartbeats 1000000 in
noncomputable def runFirst (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : condFirst i) (hc1 : condFresh i) (hc2 : ¬condAdding i)
    (x0 : Vec F S4096x256 .f32) (x1 : Vec F S2x128x64 .f32) (x2 : Vec F S2x1x64 .f32) (x3 : Vec F S2x256x2048 .f32) :
    Σ' (L4 : List (View.Piece (Elt F) S256x64 .f32)), { LS : List (View.Piece (Elt F) S2x4096x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Body

end
-- ==== Proof.KernelRunFresh.lean ====
/-
  The body at a later point with contraction coordinate zero: with the inputs' staging memrefs at their blocks, the scratch
  at given contents and the output's memref at anything, it ends with the inputs and the scratch as they were and the
  output's memref rewritten by one store of the point's products.
-/
import proofs.«163337_g50706383897208_cont_sun_m_271_35_alg».proof.Proof.KernelRunFirst

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen
variable {F : FTy → Type} [FloatOps F]
local notation "𝕄" => MT nD τ sig Unit (Elt F) ℕ (UR sig nD τ) ℕ

set_option maxHeartbeats 1000000 in
noncomputable def runFresh (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : ¬condFirst i) (hc1 : condFresh i) (hc2 : ¬condAdding i)
    (x0 : Vec F S4096x256 .f32) (x1 : Vec F S2x128x64 .f32) (x2 : Vec F S2x1x64 .f32) (x3 : Vec F S2x256x2048 .f32) (xs0 : Vec F S2x4096x64 .f32) :
    { L4 : List (View.Piece (Elt F) S256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS0

end Cert.Kernel.Body

end
-- ==== Proof.KernelRunAdding.lean ====
/-
  The body at a point with contraction coordinate one: with the inputs' staging memrefs at their blocks, the scratch at
  given contents and the output's memref at what the point before left, it ends with the inputs and the scratch as they
  were and the output's memref rewritten by one store: what it held plus the point's products.
-/
import proofs.«163337_g50706383897208_cont_sun_m_271_35_alg».proof.Proof.KernelRunFresh

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen
variable {F : FTy → Type} [FloatOps F]
local notation "𝕄" => MT nD τ sig Unit (Elt F) ℕ (UR sig nD τ) ℕ

set_option maxHeartbeats 1000000 in
noncomputable def runAdding (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : ¬condFirst i) (hc1 : ¬condFresh i) (hc2 : condAdding i)
    (x0 : Vec F S4096x256 .f32) (x1 : Vec F S2x128x64 .f32) (x2 : Vec F S2x1x64 .f32) (x3 : Vec F S2x256x2048 .f32) (y4 : Vec F S256x64 .f32) (xs0 : Vec F S2x4096x64 .f32) :
    { L4 : List (View.Piece (Elt F) S256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS0

end Cert.Kernel.Body

end
-- ==== Proof.KernelData.lean ====
/-
  The proof data of the one pipeline and the body obligation at every point, for the kernel read at any float instance.

  After the first point the scratch holds the two hidden projections (`hidden`) and no later point stores into it, so the
  region invariant is: anything before the first point, `hidden` before every later one. The output's staging buffer
  holds after a point with contraction coordinate zero that point's products (`outEven`), and after the point with
  contraction coordinate one that follows it those plus its own products (`outAt`); the block is written back only after
  the second, so the second finds in the buffer what the first left.
-/
import proofs.«163337_g50706383897208_cont_sun_m_271_35_alg».proof.Proof.KernelRunAdding

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window, through which its contents are stated (any choice reads the same). -/
abbrev VO : View sig .tc .vmem S256x64 .f32 := (Memref.whole cc0_stg4_0 : Memref sig .tc .vmem S256x64 .f32).view
/-- The scratch as a view. -/
abbrev VS : View sig .tc .vmem S2x4096x64 .f32 := scM.view

/-! ## What each case's stores cover and leave -/

theorem coverFirstS (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : condFirst i) (hc1 : condFresh i) (hc2 : ¬condAdding i) (x0 : Vec F S4096x256 .f32) (x1 : Vec F S2x128x64 .f32) (x2 : Vec F S2x1x64 .f32) (x3 : Vec F S2x256x2048 .f32) (y : S2x4096x64.Idx) :
    ∃ pc ∈ (runFirst c i arg2 harg2 arg3 harg3 arg4 harg4 arg5 harg5 arg6 harg6 arg7 harg7 hc0 hc1 hc2 x0 x1 x2 x3).2.1, y ∈ pc.1.set :=
  View.cover_of_tiledL (runFirst c i arg2 harg2 arg3 harg3 arg4 harg4 arg5 harg5 arg6 harg6 arg7 harg7 hc0 hc1 hc2 x0 x1 x2 x3).2.1 S1x4096x64.size (by sl_kernel_rfl) y

theorem coverFirstO (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : condFirst i) (hc1 : condFresh i) (hc2 : ¬condAdding i) (x0 : Vec F S4096x256 .f32) (x1 : Vec F S2x128x64 .f32) (x2 : Vec F S2x1x64 .f32) (x3 : Vec F S2x256x2048 .f32) (y : S256x64.Idx) :
    ∃ pc ∈ (runFirst c i arg2 harg2 arg3 harg3 arg4 harg4 arg5 harg5 arg6 harg6 arg7 harg7 hc0 hc1 hc2 x0 x1 x2 x3).1, y ∈ pc.1.set :=
  View.cover_of_tiledL (runFirst c i arg2 harg2 arg3 harg3 arg4 harg4 arg5 harg5 arg6 harg6 arg7 harg7 hc0 hc1 hc2 x0 x1 x2 x3).1 S256x64.size (by sl_kernel_rfl) y

theorem coverFresh (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : ¬condFirst i) (hc1 : condFresh i) (hc2 : ¬condAdding i) (x0 : Vec F S4096x256 .f32) (x1 : Vec F S2x128x64 .f32) (x2 : Vec F S2x1x64 .f32) (x3 : Vec F S2x256x2048 .f32) (xs0 : Vec F S2x4096x64 .f32) (y : S256x64.Idx) :
    ∃ pc ∈ (runFresh c i arg2 harg2 arg3 harg3 arg4 harg4 arg5 harg5 arg6 harg6 arg7 harg7 hc0 hc1 hc2 x0 x1 x2 x3 xs0).1, y ∈ pc.1.set :=
  View.cover_of_tiledL (runFresh c i arg2 harg2 arg3 harg3 arg4 harg4 arg5 harg5 arg6 harg6 arg7 harg7 hc0 hc1 hc2 x0 x1 x2 x3 xs0).1 S256x64.size (by sl_kernel_rfl) y

theorem coverAdding (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : ¬condFirst i) (hc1 : ¬condFresh i) (hc2 : condAdding i) (x0 : Vec F S4096x256 .f32) (x1 : Vec F S2x128x64 .f32) (x2 : Vec F S2x1x64 .f32) (x3 : Vec F S2x256x2048 .f32) (y4 : Vec F S256x64 .f32) (xs0 : Vec F S2x4096x64 .f32) (y : S256x64.Idx) :
    ∃ pc ∈ (runAdding c i arg2 harg2 arg3 harg3 arg4 harg4 arg5 harg5 arg6 harg6 arg7 harg7 hc0 hc1 hc2 x0 x1 x2 x3 y4 xs0).1, y ∈ pc.1.set :=
  View.cover_of_tiledL (runAdding c i arg2 harg2 arg3 harg3 arg4 harg4 arg5 harg5 arg6 harg6 arg7 harg7 hc0 hc1 hc2 x0 x1 x2 x3 y4 xs0).1 S256x64.size (by sl_kernel_rfl) y

/-- What the first point leaves in the scratch: its two stores read back. -/
def soutFirst (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : condFirst i) (hc1 : condFresh i) (hc2 : ¬condAdding i) (x0 : Vec F S4096x256 .f32) (x1 : Vec F S2x128x64 .f32) (x2 : Vec F S2x1x64 .f32) (x3 : Vec F S2x256x2048 .f32) : Vec F S2x4096x64 .f32 :=
  VS.read (Elt F) (VS.writes (Elt F) VS.junk (runFirst c i arg2 harg2 arg3 harg3 arg4 harg4 arg5 harg5 arg6 harg6 arg7 harg7 hc0 hc1 hc2 x0 x1 x2 x3).2.1)
/-- What the first point leaves in the output's buffer. -/
def outFirst (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : condFirst i) (hc1 : condFresh i) (hc2 : ¬condAdding i) (x0 : Vec F S4096x256 .f32) (x1 : Vec F S2x128x64 .f32) (x2 : Vec F S2x1x64 .f32) (x3 : Vec F S2x256x2048 .f32) : Vec F S256x64 .f32 :=
  VO.read (Elt F) (VO.writes (Elt F) VO.junk (runFirst c i arg2 harg2 arg3 harg3 arg4 harg4 arg5 harg5 arg6 harg6 arg7 harg7 hc0 hc1 hc2 x0 x1 x2 x3).1)
/-- What a later point with contraction coordinate zero leaves in the output's buffer. -/
def outFresh (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : ¬condFirst i) (hc1 : condFresh i) (hc2 : ¬condAdding i) (x0 : Vec F S4096x256 .f32) (x1 : Vec F S2x128x64 .f32) (x2 : Vec F S2x1x64 .f32) (x3 : Vec F S2x256x2048 .f32) (xs0 : Vec F S2x4096x64 .f32) : Vec F S256x64 .f32 :=
  VO.read (Elt F) (VO.writes (Elt F) VO.junk (runFresh c i arg2 harg2 arg3 harg3 arg4 harg4 arg5 harg5 arg6 harg6 arg7 harg7 hc0 hc1 hc2 x0 x1 x2 x3 xs0).1)
/-- What a point with contraction coordinate one leaves in the output's buffer. -/
def outAdding (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : ¬condFirst i) (hc1 : ¬condFresh i) (hc2 : condAdding i) (x0 : Vec F S4096x256 .f32) (x1 : Vec F S2x128x64 .f32) (x2 : Vec F S2x1x64 .f32) (x3 : Vec F S2x256x2048 .f32) (y4 : Vec F S256x64 .f32) (xs0 : Vec F S2x4096x64 .f32) : Vec F S256x64 .f32 :=
  VO.read (Elt F) (VO.writes (Elt F) VO.junk (runAdding c i arg2 harg2 arg3 harg3 arg4 harg4 arg5 harg5 arg6 harg6 arg7 harg7 hc0 hc1 hc2 x0 x1 x2 x3 y4 xs0).1)

/-! ## What the scratch and the output's buffer hold, point by point -/

theorem N32 : cfg0.N = 32 := N_0

/-- The grid's first point. -/
def t0 : Fin cfg0.N := ⟨0, by rw [N32]; decide⟩

theorem t0_first : condFirst (grid0.coords t0) := (hFirst t0).mpr rfl
theorem t0_fresh : condFresh (grid0.coords t0) := (hFresh t0).mpr rfl
theorem t0_notAdding : ¬condAdding (grid0.coords t0) := fun h => absurd ((hAdding t0).mp h) (by decide)

/-- The scratch after the first point: the two hidden projections of the argument blocks. -/
def hidden (c : Dev nD) : Vec F S2x4096x64 .f32 :=
  soutFirst c (grid0.coords t0) (ms0 t0) (hs0 t0) (ms1 t0) (hs1 t0) (ms2 t0) (hs2 t0) (ms3 t0) (hs3 t0) (ms4 t0) (hs4 t0) scM (Memref.isWhole_whole _) t0_first t0_fresh t0_notAdding (iblk m c 0 t0) (iblk m c 1 t0) (iblk m c 2 t0) (iblk m c 3 t0)

/-- The scratch after the first point, stated at any name of that point. -/
theorem hidden_at (c : Dev nD) (t : Fin cfg0.N) (hz : t.val = 0) (p0 : condFirst (grid0.coords t)) (p1 : condFresh (grid0.coords t))
    (p2 : ¬condAdding (grid0.coords t)) :
    hidden m c = soutFirst c (grid0.coords t) (ms0 t) (hs0 t) (ms1 t) (hs1 t) (ms2 t) (hs2 t) (ms3 t) (hs3 t) (ms4 t) (hs4 t) scM (Memref.isWhole_whole _) p0 p1 p2 (iblk m c 0 t) (iblk m c 1 t) (iblk m c 2 t) (iblk m c 3 t) := by
  obtain rfl : t = t0 := Fin.ext hz
  rfl

/-- The output's buffer after a point with contraction coordinate zero. -/
def outEven (c : Dev nD) (t : Fin cfg0.N) (he : t.val % 2 = 0) : Vec F S256x64 .f32 :=
  if h0 : t.val % 32 = 0 then
    outFirst c (grid0.coords t) (ms0 t) (hs0 t) (ms1 t) (hs1 t) (ms2 t) (hs2 t) (ms3 t) (hs3 t) (ms4 t) (hs4 t) scM (Memref.isWhole_whole _) ((hFirst t).mpr h0) ((hFresh t).mpr he) (fun h => by have := (hAdding t).mp h; omega) (iblk m c 0 t) (iblk m c 1 t) (iblk m c 2 t) (iblk m c 3 t)
  else
    outFresh c (grid0.coords t) (ms0 t) (hs0 t) (ms1 t) (hs1 t) (ms2 t) (hs2 t) (ms3 t) (hs3 t) (ms4 t) (hs4 t) scM (Memref.isWhole_whole _) (fun h => h0 ((hFirst t).mp h)) ((hFresh t).mpr he) (fun h => by have := (hAdding t).mp h; omega) (iblk m c 0 t) (iblk m c 1 t) (iblk m c 2 t) (iblk m c 3 t) (hidden m c)

/-- The point before `t`. -/
def prev (t : Fin cfg0.N) : Fin cfg0.N := ⟨t.val - 1, Nat.lt_of_le_of_lt (Nat.sub_le _ _) t.isLt⟩

/-- The output's buffer after any point. -/
def outAt (c : Dev nD) (t : Fin cfg0.N) : Vec F S256x64 .f32 :=
  if he : t.val % 2 = 0 then outEven m c t he
  else
    outAdding c (grid0.coords t) (ms0 t) (hs0 t) (ms1 t) (hs1 t) (ms2 t) (hs2 t) (ms3 t) (hs3 t) (ms4 t) (hs4 t) scM (Memref.isWhole_whole _) (fun h => by have := (hFirst t).mp h; omega) (fun h => he ((hFresh t).mp h)) ((hAdding t).mpr (by omega)) (iblk m c 0 t) (iblk m c 1 t) (iblk m c 2 t) (iblk m c 3 t)
      (outEven m c (prev t) (by show (t.val - 1) % 2 = 0; omega)) (hidden m c)

/-- The region invariant before position `n`: before the first point the scratch at anything; afterwards at the hidden
    projections; the generator register at some state throughout. -/
def PhiS (c : Dev nD) : ℕ → sProp 𝕄
  | 0 => Pipeline.ΦA spec0 c
  | _ + 1 => iprop(iprop(owns (c : Thread nD τ) scM fullShare (hidden m c)) ∗ (∃ r, prngReg c r))

theorem PhiS_zero (c : Dev nD) (n : ℕ) (hz : n = 0) : PhiS m c n = Pipeline.ΦA spec0 c := by subst hz; rfl
theorem PhiS_pos (c : Dev nD) (n : ℕ) (hz : n ≠ 0) :
    PhiS m c n = iprop(iprop(owns (c : Thread nD τ) scM fullShare (hidden m c)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- At a point with contraction coordinate one the output's buffer holds what the point before left: that point did not
    write the block back, and stored into the buffer. -/
theorem before4_adding (c : Dev nD) (t : Fin cfg0.N) (h1 : t.val % 2 = 1) (d) :
    (dats m 0 c).before 4 t d = outEven m c (prev t) (by show (t.val - 1) % 2 = 0; omega) := by
  have hfl : (cfg0.win 4).flush (prev t) = false := by
    cases hb : (cfg0.win 4).flush (prev t) with
    | false => rfl
    | true => exact absurd ((flush0_4 (prev t)).mp hb) (by show ¬ (t.val - 1) % 2 = 1; omega)
  rw [(dats m 0 c).before_of_pos 4 t (by omega) ((cfg0.win 4).fetch_out rfl t)]
  show (if (cfg0.win 4).flush (prev t) = true then d else (dats m 0 c).left 4 (prev t) d) = _
  rw [hfl, if_neg Bool.false_ne_true]
  unfold Dat.left; rw [live4 (prev t)]
  show (dats m 0 c).kept 4 (prev t) d = _
  unfold Dat.kept
  rw [Pipeline.fill_of_clip_none (cfg := cfg0) 4 _ (fun _ => rfl) d ((dats m 0 c).after 4 (prev t)), Window.fill_cut, after4]
  unfold outAt
  rw [dif_pos]

/-! ## What the body is called with and what it returns -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

end Cert.Kernel.Body

end
-- ==== Proof.KernelBodyFirst.lean ====
/-
  The body obligation at the grid's first point: the scratch is handed over at anything and taken back at the two hidden
  projections, the output's buffer taken back at the point's products.
-/
import proofs.«163337_g50706383897208_cont_sun_m_271_35_alg».proof.Proof.KernelData

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_first (c : Dev nD) (t : Fin cfg0.N) (he : t.val % 2 = 0) (h0 : t.val % 32 = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, PhiS_pos m c (t.val + 1) (Nat.succ_ne_zero _)]
  rw [show (dats m 0 c).Φ t.castSucc = PhiS m c t.val from rfl]
  have hN : t.val < 32 := lt_of_lt_of_eq t.isLt N32
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]

  have hz : t.val = 0 := by omega
  rw [PhiS_zero m c _ hz, PhiA_eq]
  unfold outAt; rw [dif_pos he]; unfold outEven; rw [dif_pos h0]
  unfold outFirst
  iintro ⟨⟨HS0, Hg⟩, Ho, ⟨%d0, H0⟩, ⟨%d1, H1⟩, ⟨%d2, H2⟩, ⟨%d3, H3⟩, ⟨%d4, H4⟩⟩
  iapply ((runFirst (F := F) c (grid0.coords t) (ms0 t) (hs0 t) (ms1 t) (hs1 t) (ms2 t) (hs2 t) (ms3 t) (hs3 t) (ms4 t) (hs4 t) scM (Memref.isWhole_whole _) ((hFirst t).mpr h0) ((hFresh t).mpr he) (fun h => by have := (hAdding t).mp h; omega) (iblk m c 0 t) (iblk m c 1 t) (iblk m c 2 t) (iblk m c 3 t)).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hg]
  · isplitl [HS0]
    · unfold owns; iexists _; isplitr
      swap; · iexact HS0
      ipureintro
      rw [hidden_at m c t hz ((hFirst t).mpr h0) ((hFresh t).mpr he) (fun h => by have := (hAdding t).mp h; omega)]
      unfold soutFirst
      exact View.read_writes_of_cover _ _ _ _ _ (coverFirstS (F := F) c (grid0.coords t) (ms0 t) (hs0 t) (ms1 t) (hs1 t) (ms2 t) (hs2 t) (ms3 t) (hs3 t) (ms4 t) (hs4 t) scM (Memref.isWhole_whole _) ((hFirst t).mpr h0) ((hFresh t).mpr he) (fun h => by have := (hAdding t).mp h; omega) (iblk m c 0 t) (iblk m c 1 t) (iblk m c 2 t) (iblk m c 3 t))
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro
  exact View.read_writes_of_cover _ _ _ _ _ (coverFirstO (F := F) c (grid0.coords t) (ms0 t) (hs0 t) (ms1 t) (hs1 t) (ms2 t) (hs2 t) (ms3 t) (hs3 t) (ms4 t) (hs4 t) scM (Memref.isWhole_whole _) ((hFirst t).mpr h0) ((hFresh t).mpr he) (fun h => by have := (hAdding t).mp h; omega) (iblk m c 0 t) (iblk m c 1 t) (iblk m c 2 t) (iblk m c 3 t))

end Cert.Kernel.Body

end
-- ==== Proof.KernelBodyFresh.lean ====
/-
  The body obligation at a later point with contraction coordinate zero: the scratch is handed over and taken back at the
  hidden projections, the output's buffer taken back at the point's products.
-/
import proofs.«163337_g50706383897208_cont_sun_m_271_35_alg».proof.Proof.KernelData

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_fresh (c : Dev nD) (t : Fin cfg0.N) (he : t.val % 2 = 0) (h0 : ¬ t.val % 32 = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, PhiS_pos m c (t.val + 1) (Nat.succ_ne_zero _)]
  rw [show (dats m 0 c).Φ t.castSucc = PhiS m c t.val from rfl]
  have hN : t.val < 32 := lt_of_lt_of_eq t.isLt N32
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]

  have hz : t.val ≠ 0 := by omega
  rw [PhiS_pos m c _ hz]
  unfold outAt; rw [dif_pos he]; unfold outEven; rw [dif_neg h0]
  unfold outFresh
  iintro ⟨⟨HS0, Hg⟩, Ho, ⟨%d0, H0⟩, ⟨%d1, H1⟩, ⟨%d2, H2⟩, ⟨%d3, H3⟩, ⟨%d4, H4⟩⟩
  iapply ((runFresh (F := F) c (grid0.coords t) (ms0 t) (hs0 t) (ms1 t) (hs1 t) (ms2 t) (hs2 t) (ms3 t) (hs3 t) (ms4 t) (hs4 t) scM (Memref.isWhole_whole _) (fun h => h0 ((hFirst t).mp h)) ((hFresh t).mpr he) (fun h => by have := (hAdding t).mp h; omega) (iblk m c 0 t) (iblk m c 1 t) (iblk m c 2 t) (iblk m c 3 t) (hidden m c)).2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro
  exact View.read_writes_of_cover _ _ _ _ _ (coverFresh (F := F) c (grid0.coords t) (ms0 t) (hs0 t) (ms1 t) (hs1 t) (ms2 t) (hs2 t) (ms3 t) (hs3 t) (ms4 t) (hs4 t) scM (Memref.isWhole_whole _) (fun h => h0 ((hFirst t).mp h)) ((hFresh t).mpr he) (fun h => by have := (hAdding t).mp h; omega) (iblk m c 0 t) (iblk m c 1 t) (iblk m c 2 t) (iblk m c 3 t) (hidden m c))

end Cert.Kernel.Body

end
-- ==== Proof.KernelBodyAdding.lean ====
/-
  The body obligation at a point with contraction coordinate one: the output's buffer is handed over at what the point
  before left and taken back at that plus the point's products; the scratch is handed over and taken back at the hidden
  projections.
-/
import proofs.«163337_g50706383897208_cont_sun_m_271_35_alg».proof.Proof.KernelData

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_adding (c : Dev nD) (t : Fin cfg0.N) (he : ¬ t.val % 2 = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, PhiS_pos m c (t.val + 1) (Nat.succ_ne_zero _)]
  rw [show (dats m 0 c).Φ t.castSucc = PhiS m c t.val from rfl]
  have hN : t.val < 32 := lt_of_lt_of_eq t.isLt N32
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]

  have h1 : t.val % 2 = 1 := by omega
  have hz : t.val ≠ 0 := by omega
  rw [PhiS_pos m c _ hz]
  simp only [before4_adding m c t h1]
  unfold outAt; rw [dif_neg he]
  unfold outAdding
  iintro ⟨⟨HS0, Hg⟩, Ho, ⟨%d0, H0⟩, ⟨%d1, H1⟩, ⟨%d2, H2⟩, ⟨%d3, H3⟩, ⟨%d4, H4⟩⟩
  iapply ((runAdding (F := F) c (grid0.coords t) (ms0 t) (hs0 t) (ms1 t) (hs1 t) (ms2 t) (hs2 t) (ms3 t) (hs3 t) (ms4 t) (hs4 t) scM (Memref.isWhole_whole _) (fun h => by have := (hFirst t).mp h; omega) (fun h => he ((hFresh t).mp h)) ((hAdding t).mpr (by omega)) (iblk m c 0 t) (iblk m c 1 t) (iblk m c 2 t) (iblk m c 3 t) (outEven m c (prev t) (by show (t.val - 1) % 2 = 0; omega)) (hidden m c)).2 Set.univ _)
  isplitl [H0]; · iexact H0
  isplitl [H1]; · iexact H1
  isplitl [H2]; · iexact H2
  isplitl [H3]; · iexact H3
  isplitl [H4]; · iexact H4
  isplitl [HS0]; · iexact HS0
  iintro ⟨H0, H1, H2, H3, ⟨%e4, H4⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro
  exact View.read_writes_of_cover _ _ _ _ _ (coverAdding (F := F) c (grid0.coords t) (ms0 t) (hs0 t) (ms1 t) (hs1 t) (ms2 t) (hs2 t) (ms3 t) (hs3 t) (ms4 t) (hs4 t) scM (Memref.isWhole_whole _) (fun h => by have := (hFirst t).mp h; omega) (fun h => he ((hFresh t).mp h)) ((hAdding t).mpr (by omega)) (iblk m c 0 t) (iblk m c 1 t) (iblk m c 2 t) (iblk m c 3 t) (outEven m c (prev t) (by show (t.val - 1) % 2 = 0; omega)) (hidden m c))

end Cert.Kernel.Body

end
-- ==== Proof.KernelFrame.lean ====
/-
  The body obligation at every point (by the point's case), the run of the whole program over the proof data, and the frame:
  the program terminates without a fault and its six argument arrays end unchanged.
-/
import proofs.«163337_g50706383897208_cont_sun_m_271_35_alg».proof.Proof.KernelBodyFirst
import proofs.«163337_g50706383897208_cont_sun_m_271_35_alg».proof.Proof.KernelBodyFresh
import proofs.«163337_g50706383897208_cont_sun_m_271_35_alg».proof.Proof.KernelBodyAdding

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases he : t.val % 2 = 0
  · by_cases h0 : t.val % 32 = 0
    · exact sound_first m c t he h0
    · exact sound_fresh m c t he h0
  · exact sound_adding m c t he

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the invariant gives the class's back: the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last, N32]; decide), PhiA_eq]
  iintro ⟨HS0, Hg⟩
  isplitl [HS0]
  · iexists _; iexact HS0
  iexact Hg

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.IdealCases.lean ====
/-
  The kernel body's three control cases over the 16 x 2 grid, decided in closed form from the linear point number
  t = 2 i + j, and the memrefs the body is called with.

  first  : i = 0 and j = 0 (t = 0): both hidden projections are written to the scratch, then the point's products stored;
  fresh  : j = 0 (t even): the products of the point's adjacency block with the first 2048 scratch rows are stored;
  adding : j = 1 (t odd): the products with the last 2048 scratch rows are added to what the point before left.
  Exactly one of "fresh" and "adding" holds at every point, so the output window is never idle.
-/
import proofs.«163337_g50706383897208_cont_sun_m_271_35_alg».proof.Proof.Gen.KernelIdeal.Frame
import proofs.«163337_g50706383897208_cont_sun_m_271_35_alg».proof.Proof.Gen.KernelIdeal.Skeleton
import proofs.«163337_g50706383897208_cont_sun_m_271_35_alg».proof.Proof.Gen.KernelIdeal.Points
import proofs.«163337_g50706383897208_cont_sun_m_271_35_alg».proof.Proof.Gen.KernelIdeal.Launch

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- The condition of the first conditional (write the hidden projections): both coordinates zero. -/
abbrev condFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hFirst : ∀ t : Fin cfg0.N, condFirst (grid0.coords t) ↔ t.val % 32 = 0 :=
  (by decide +kernel : ∀ t : Fin grid0.N, condFirst (grid0.coords t) ↔ t.val % 32 = 0)

/-- The condition of the second conditional (store the products): the contraction coordinate is zero. -/
abbrev condFresh (i : grid0.Coords) : Prop := k0_cond2 i = 1#1
theorem hFresh : ∀ t : Fin cfg0.N, condFresh (grid0.coords t) ↔ t.val % 2 = 0 :=
  (by decide +kernel : ∀ t : Fin grid0.N, condFresh (grid0.coords t) ↔ t.val % 2 = 0)

/-- The condition of the third conditional (add the products): the contraction coordinate is not zero. -/
abbrev condAdding (i : grid0.Coords) : Prop := k0_cond3 i = 1#1
theorem hAdding : ∀ t : Fin cfg0.N, condAdding (grid0.coords t) ↔ t.val % 2 = 1 :=
  (by decide +kernel : ∀ t : Fin grid0.N, condAdding (grid0.coords t) ↔ t.val % 2 = 1)

/-- No window is idle at any point: the inputs never are, and the output is stored into under one of two
    complementary conditions. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel

/-- The scratch rows a point reads start at row 2048 j of each of the two hidden matrices. -/
theorem off1_eq : ∀ t : Fin cfg0.N, k0_off1 (grid0.coords t) = ![0, 2048 * (t.val % 2), 0] :=
  (by decide +kernel : ∀ t : Fin grid0.N, k0_off1 (grid0.coords t) = ![0, 2048 * (t.val % 2), 0])
theorem off2_eq : ∀ t : Fin cfg0.N, k0_off2 (grid0.coords t) = ![1, 2048 * (t.val % 2), 0] :=
  (by decide +kernel : ∀ t : Fin grid0.N, k0_off2 (grid0.coords t) = ![1, 2048 * (t.val % 2), 0])

/-- Each window's current staging memref at point `t`, as the pipeline passes it, and its wholeness. -/
abbrev ms0 (t : Fin cfg0.N) : Memref sig .tc .vmem S4096x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x128x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x1x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2x256x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x64 .f32 := win0_4.stage (cfg0.slots t 4)
abbrev hs4 (t : Fin cfg0.N) : (ms4 t).IsWhole := hstage0_4 ((cfg0.slots t 4).cast nbuf0_4)
/-- The scratch operand: a whole buffer of the kernel's own holding the two hidden matrices. -/
abbrev scM : Memref sig .tc .vmem S2x4096x64 .f32 := Memref.whole cc0_scratch0

/-- The region invariant of the class with the scratch operand as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Body

end
-- ==== Proof.IdealRunFirst.lean ====
/-
  The body at the grid's first point: with the inputs' staging memrefs at their blocks and the output's and the scratch at
  anything, it ends with the inputs as they were, the scratch rewritten by two stores (the two hidden projections, one per
  leading index) and the output's memref rewritten by one store of the point's products. The stored pieces are the
  witnesses the symbolic run finds.
-/
import proofs.«163337_g50706383897208_cont_sun_m_271_35_alg».proof.Proof.IdealCases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
variable {F : FTy → Type} [FloatOps F]
local notation "𝕄" => MT nD τ sig Unit (Elt F) ℕ (UR sig nD τ) ℕ

set_option maxHeartbeats 1000000 in
noncomputable def runFirst (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : condFirst i) (hc1 : condFresh i) (hc2 : ¬condAdding i)
    (x0 : Vec F S4096x256 .f32) (x1 : Vec F S2x128x64 .f32) (x2 : Vec F S2x1x64 .f32) (x3 : Vec F S2x256x2048 .f32) :
    Σ' (L4 : List (View.Piece (Elt F) S256x64 .f32)), { LS : List (View.Piece (Elt F) S2x4096x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Body

end
-- ==== Proof.IdealRunFresh.lean ====
/-
  The body at a later point with contraction coordinate zero: with the inputs' staging memrefs at their blocks, the scratch
  at given contents and the output's memref at anything, it ends with the inputs and the scratch as they were and the
  output's memref rewritten by one store of the point's products.
-/
import proofs.«163337_g50706383897208_cont_sun_m_271_35_alg».proof.Proof.IdealRunFirst

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
variable {F : FTy → Type} [FloatOps F]
local notation "𝕄" => MT nD τ sig Unit (Elt F) ℕ (UR sig nD τ) ℕ

set_option maxHeartbeats 1000000 in
noncomputable def runFresh (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : ¬condFirst i) (hc1 : condFresh i) (hc2 : ¬condAdding i)
    (x0 : Vec F S4096x256 .f32) (x1 : Vec F S2x128x64 .f32) (x2 : Vec F S2x1x64 .f32) (x3 : Vec F S2x256x2048 .f32) (xs0 : Vec F S2x4096x64 .f32) :
    { L4 : List (View.Piece (Elt F) S256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS0

end Cert.KernelIdeal.Body

end
-- ==== Proof.IdealRunAdding.lean ====
/-
  The body at a point with contraction coordinate one: with the inputs' staging memrefs at their blocks, the scratch at
  given contents and the output's memref at what the point before left, it ends with the inputs and the scratch as they
  were and the output's memref rewritten by one store: what it held plus the point's products.
-/
import proofs.«163337_g50706383897208_cont_sun_m_271_35_alg».proof.Proof.IdealRunFresh

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
variable {F : FTy → Type} [FloatOps F]
local notation "𝕄" => MT nD τ sig Unit (Elt F) ℕ (UR sig nD τ) ℕ

set_option maxHeartbeats 1000000 in
noncomputable def runAdding (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : ¬condFirst i) (hc1 : ¬condFresh i) (hc2 : condAdding i)
    (x0 : Vec F S4096x256 .f32) (x1 : Vec F S2x128x64 .f32) (x2 : Vec F S2x1x64 .f32) (x3 : Vec F S2x256x2048 .f32) (y4 : Vec F S256x64 .f32) (xs0 : Vec F S2x4096x64 .f32) :
    { L4 : List (View.Piece (Elt F) S256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs0) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS0

end Cert.KernelIdeal.Body

end
-- ==== Proof.IdealData.lean ====
/-
  The proof data of the one pipeline and the body obligation at every point, for the kernel read at any float instance.

  After the first point the scratch holds the two hidden projections (`hidden`) and no later point stores into it, so the
  region invariant is: anything before the first point, `hidden` before every later one. The output's staging buffer
  holds after a point with contraction coordinate zero that point's products (`outEven`), and after the point with
  contraction coordinate one that follows it those plus its own products (`outAt`); the block is written back only after
  the second, so the second finds in the buffer what the first left.
-/
import proofs.«163337_g50706383897208_cont_sun_m_271_35_alg».proof.Proof.IdealRunAdding

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window, through which its contents are stated (any choice reads the same). -/
abbrev VO : View sig .tc .vmem S256x64 .f32 := (Memref.whole cc0_stg4_0 : Memref sig .tc .vmem S256x64 .f32).view
/-- The scratch as a view. -/
abbrev VS : View sig .tc .vmem S2x4096x64 .f32 := scM.view

/-! ## What each case's stores cover and leave -/

theorem coverFirstS (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : condFirst i) (hc1 : condFresh i) (hc2 : ¬condAdding i) (x0 : Vec F S4096x256 .f32) (x1 : Vec F S2x128x64 .f32) (x2 : Vec F S2x1x64 .f32) (x3 : Vec F S2x256x2048 .f32) (y : S2x4096x64.Idx) :
    ∃ pc ∈ (runFirst c i arg2 harg2 arg3 harg3 arg4 harg4 arg5 harg5 arg6 harg6 arg7 harg7 hc0 hc1 hc2 x0 x1 x2 x3).2.1, y ∈ pc.1.set :=
  View.cover_of_tiledL (runFirst c i arg2 harg2 arg3 harg3 arg4 harg4 arg5 harg5 arg6 harg6 arg7 harg7 hc0 hc1 hc2 x0 x1 x2 x3).2.1 S1x4096x64.size (by sl_kernel_rfl) y

theorem coverFirstO (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : condFirst i) (hc1 : condFresh i) (hc2 : ¬condAdding i) (x0 : Vec F S4096x256 .f32) (x1 : Vec F S2x128x64 .f32) (x2 : Vec F S2x1x64 .f32) (x3 : Vec F S2x256x2048 .f32) (y : S256x64.Idx) :
    ∃ pc ∈ (runFirst c i arg2 harg2 arg3 harg3 arg4 harg4 arg5 harg5 arg6 harg6 arg7 harg7 hc0 hc1 hc2 x0 x1 x2 x3).1, y ∈ pc.1.set :=
  View.cover_of_tiledL (runFirst c i arg2 harg2 arg3 harg3 arg4 harg4 arg5 harg5 arg6 harg6 arg7 harg7 hc0 hc1 hc2 x0 x1 x2 x3).1 S256x64.size (by sl_kernel_rfl) y

theorem coverFresh (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : ¬condFirst i) (hc1 : condFresh i) (hc2 : ¬condAdding i) (x0 : Vec F S4096x256 .f32) (x1 : Vec F S2x128x64 .f32) (x2 : Vec F S2x1x64 .f32) (x3 : Vec F S2x256x2048 .f32) (xs0 : Vec F S2x4096x64 .f32) (y : S256x64.Idx) :
    ∃ pc ∈ (runFresh c i arg2 harg2 arg3 harg3 arg4 harg4 arg5 harg5 arg6 harg6 arg7 harg7 hc0 hc1 hc2 x0 x1 x2 x3 xs0).1, y ∈ pc.1.set :=
  View.cover_of_tiledL (runFresh c i arg2 harg2 arg3 harg3 arg4 harg4 arg5 harg5 arg6 harg6 arg7 harg7 hc0 hc1 hc2 x0 x1 x2 x3 xs0).1 S256x64.size (by sl_kernel_rfl) y

theorem coverAdding (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : ¬condFirst i) (hc1 : ¬condFresh i) (hc2 : condAdding i) (x0 : Vec F S4096x256 .f32) (x1 : Vec F S2x128x64 .f32) (x2 : Vec F S2x1x64 .f32) (x3 : Vec F S2x256x2048 .f32) (y4 : Vec F S256x64 .f32) (xs0 : Vec F S2x4096x64 .f32) (y : S256x64.Idx) :
    ∃ pc ∈ (runAdding c i arg2 harg2 arg3 harg3 arg4 harg4 arg5 harg5 arg6 harg6 arg7 harg7 hc0 hc1 hc2 x0 x1 x2 x3 y4 xs0).1, y ∈ pc.1.set :=
  View.cover_of_tiledL (runAdding c i arg2 harg2 arg3 harg3 arg4 harg4 arg5 harg5 arg6 harg6 arg7 harg7 hc0 hc1 hc2 x0 x1 x2 x3 y4 xs0).1 S256x64.size (by sl_kernel_rfl) y

/-- What the first point leaves in the scratch: its two stores read back. -/
def soutFirst (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : condFirst i) (hc1 : condFresh i) (hc2 : ¬condAdding i) (x0 : Vec F S4096x256 .f32) (x1 : Vec F S2x128x64 .f32) (x2 : Vec F S2x1x64 .f32) (x3 : Vec F S2x256x2048 .f32) : Vec F S2x4096x64 .f32 :=
  VS.read (Elt F) (VS.writes (Elt F) VS.junk (runFirst c i arg2 harg2 arg3 harg3 arg4 harg4 arg5 harg5 arg6 harg6 arg7 harg7 hc0 hc1 hc2 x0 x1 x2 x3).2.1)
/-- What the first point leaves in the output's buffer. -/
def outFirst (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : condFirst i) (hc1 : condFresh i) (hc2 : ¬condAdding i) (x0 : Vec F S4096x256 .f32) (x1 : Vec F S2x128x64 .f32) (x2 : Vec F S2x1x64 .f32) (x3 : Vec F S2x256x2048 .f32) : Vec F S256x64 .f32 :=
  VO.read (Elt F) (VO.writes (Elt F) VO.junk (runFirst c i arg2 harg2 arg3 harg3 arg4 harg4 arg5 harg5 arg6 harg6 arg7 harg7 hc0 hc1 hc2 x0 x1 x2 x3).1)
/-- What a later point with contraction coordinate zero leaves in the output's buffer. -/
def outFresh (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : ¬condFirst i) (hc1 : condFresh i) (hc2 : ¬condAdding i) (x0 : Vec F S4096x256 .f32) (x1 : Vec F S2x128x64 .f32) (x2 : Vec F S2x1x64 .f32) (x3 : Vec F S2x256x2048 .f32) (xs0 : Vec F S2x4096x64 .f32) : Vec F S256x64 .f32 :=
  VO.read (Elt F) (VO.writes (Elt F) VO.junk (runFresh c i arg2 harg2 arg3 harg3 arg4 harg4 arg5 harg5 arg6 harg6 arg7 harg7 hc0 hc1 hc2 x0 x1 x2 x3 xs0).1)
/-- What a point with contraction coordinate one leaves in the output's buffer. -/
def outAdding (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : ¬condFirst i) (hc1 : ¬condFresh i) (hc2 : condAdding i) (x0 : Vec F S4096x256 .f32) (x1 : Vec F S2x128x64 .f32) (x2 : Vec F S2x1x64 .f32) (x3 : Vec F S2x256x2048 .f32) (y4 : Vec F S256x64 .f32) (xs0 : Vec F S2x4096x64 .f32) : Vec F S256x64 .f32 :=
  VO.read (Elt F) (VO.writes (Elt F) VO.junk (runAdding c i arg2 harg2 arg3 harg3 arg4 harg4 arg5 harg5 arg6 harg6 arg7 harg7 hc0 hc1 hc2 x0 x1 x2 x3 y4 xs0).1)

/-! ## What the scratch and the output's buffer hold, point by point -/

theorem N32 : cfg0.N = 32 := N_0

/-- The grid's first point. -/
def t0 : Fin cfg0.N := ⟨0, by rw [N32]; decide⟩

theorem t0_first : condFirst (grid0.coords t0) := (hFirst t0).mpr rfl
theorem t0_fresh : condFresh (grid0.coords t0) := (hFresh t0).mpr rfl
theorem t0_notAdding : ¬condAdding (grid0.coords t0) := fun h => absurd ((hAdding t0).mp h) (by decide)

/-- The scratch after the first point: the two hidden projections of the argument blocks. -/
def hidden (c : Dev nD) : Vec F S2x4096x64 .f32 :=
  soutFirst c (grid0.coords t0) (ms0 t0) (hs0 t0) (ms1 t0) (hs1 t0) (ms2 t0) (hs2 t0) (ms3 t0) (hs3 t0) (ms4 t0) (hs4 t0) scM (Memref.isWhole_whole _) t0_first t0_fresh t0_notAdding (iblk m c 0 t0) (iblk m c 1 t0) (iblk m c 2 t0) (iblk m c 3 t0)

/-- The scratch after the first point, stated at any name of that point. -/
theorem hidden_at (c : Dev nD) (t : Fin cfg0.N) (hz : t.val = 0) (p0 : condFirst (grid0.coords t)) (p1 : condFresh (grid0.coords t))
    (p2 : ¬condAdding (grid0.coords t)) :
    hidden m c = soutFirst c (grid0.coords t) (ms0 t) (hs0 t) (ms1 t) (hs1 t) (ms2 t) (hs2 t) (ms3 t) (hs3 t) (ms4 t) (hs4 t) scM (Memref.isWhole_whole _) p0 p1 p2 (iblk m c 0 t) (iblk m c 1 t) (iblk m c 2 t) (iblk m c 3 t) := by
  obtain rfl : t = t0 := Fin.ext hz
  rfl

/-- The output's buffer after a point with contraction coordinate zero. -/
def outEven (c : Dev nD) (t : Fin cfg0.N) (he : t.val % 2 = 0) : Vec F S256x64 .f32 :=
  if h0 : t.val % 32 = 0 then
    outFirst c (grid0.coords t) (ms0 t) (hs0 t) (ms1 t) (hs1 t) (ms2 t) (hs2 t) (ms3 t) (hs3 t) (ms4 t) (hs4 t) scM (Memref.isWhole_whole _) ((hFirst t).mpr h0) ((hFresh t).mpr he) (fun h => by have := (hAdding t).mp h; omega) (iblk m c 0 t) (iblk m c 1 t) (iblk m c 2 t) (iblk m c 3 t)
  else
    outFresh c (grid0.coords t) (ms0 t) (hs0 t) (ms1 t) (hs1 t) (ms2 t) (hs2 t) (ms3 t) (hs3 t) (ms4 t) (hs4 t) scM (Memref.isWhole_whole _) (fun h => h0 ((hFirst t).mp h)) ((hFresh t).mpr he) (fun h => by have := (hAdding t).mp h; omega) (iblk m c 0 t) (iblk m c 1 t) (iblk m c 2 t) (iblk m c 3 t) (hidden m c)

/-- The point before `t`. -/
def prev (t : Fin cfg0.N) : Fin cfg0.N := ⟨t.val - 1, Nat.lt_of_le_of_lt (Nat.sub_le _ _) t.isLt⟩

/-- The output's buffer after any point. -/
def outAt (c : Dev nD) (t : Fin cfg0.N) : Vec F S256x64 .f32 :=
  if he : t.val % 2 = 0 then outEven m c t he
  else
    outAdding c (grid0.coords t) (ms0 t) (hs0 t) (ms1 t) (hs1 t) (ms2 t) (hs2 t) (ms3 t) (hs3 t) (ms4 t) (hs4 t) scM (Memref.isWhole_whole _) (fun h => by have := (hFirst t).mp h; omega) (fun h => he ((hFresh t).mp h)) ((hAdding t).mpr (by omega)) (iblk m c 0 t) (iblk m c 1 t) (iblk m c 2 t) (iblk m c 3 t)
      (outEven m c (prev t) (by show (t.val - 1) % 2 = 0; omega)) (hidden m c)

/-- The region invariant before position `n`: before the first point the scratch at anything; afterwards at the hidden
    projections; the generator register at some state throughout. -/
def PhiS (c : Dev nD) : ℕ → sProp 𝕄
  | 0 => Pipeline.ΦA spec0 c
  | _ + 1 => iprop(iprop(owns (c : Thread nD τ) scM fullShare (hidden m c)) ∗ (∃ r, prngReg c r))

theorem PhiS_zero (c : Dev nD) (n : ℕ) (hz : n = 0) : PhiS m c n = Pipeline.ΦA spec0 c := by subst hz; rfl
theorem PhiS_pos (c : Dev nD) (n : ℕ) (hz : n ≠ 0) :
    PhiS m c n = iprop(iprop(owns (c : Thread nD τ) scM fullShare (hidden m c)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- At a point with contraction coordinate one the output's buffer holds what the point before left: that point did not
    write the block back, and stored into the buffer. -/
theorem before4_adding (c : Dev nD) (t : Fin cfg0.N) (h1 : t.val % 2 = 1) (d) :
    (dats m 0 c).before 4 t d = outEven m c (prev t) (by show (t.val - 1) % 2 = 0; omega) := by
  have hfl : (cfg0.win 4).flush (prev t) = false := by
    cases hb : (cfg0.win 4).flush (prev t) with
    | false => rfl
    | true => exact absurd ((flush0_4 (prev t)).mp hb) (by show ¬ (t.val - 1) % 2 = 1; omega)
  rw [(dats m 0 c).before_of_pos 4 t (by omega) ((cfg0.win 4).fetch_out rfl t)]
  show (if (cfg0.win 4).flush (prev t) = true then d else (dats m 0 c).left 4 (prev t) d) = _
  rw [hfl, if_neg Bool.false_ne_true]
  unfold Dat.left; rw [live4 (prev t)]
  show (dats m 0 c).kept 4 (prev t) d = _
  unfold Dat.kept
  rw [Pipeline.fill_of_clip_none (cfg := cfg0) 4 _ (fun _ => rfl) d ((dats m 0 c).after 4 (prev t)), Window.fill_cut, after4]
  unfold outAt
  rw [dif_pos]

/-! ## What the body is called with and what it returns -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

end Cert.KernelIdeal.Body

end
-- ==== Proof.IdealBodyFirst.lean ====
/-
  The body obligation at the grid's first point: the scratch is handed over at anything and taken back at the two hidden
  projections, the output's buffer taken back at the point's products.
-/
import proofs.«163337_g50706383897208_cont_sun_m_271_35_alg».proof.Proof.IdealData

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_first (c : Dev nD) (t : Fin cfg0.N) (he : t.val % 2 = 0) (h0 : t.val % 32 = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, PhiS_pos m c (t.val + 1) (Nat.succ_ne_zero _)]
  rw [show (dats m 0 c).Φ t.castSucc = PhiS m c t.val from rfl]
  have hN : t.val < 32 := lt_of_lt_of_eq t.isLt N32
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]

  have hz : t.val = 0 := by omega
  rw [PhiS_zero m c _ hz, PhiA_eq]
  unfold outAt; rw [dif_pos he]; unfold outEven; rw [dif_pos h0]
  unfold outFirst
  iintro ⟨⟨HS0, Hg⟩, Ho, ⟨%d0, H0⟩, ⟨%d1, H1⟩, ⟨%d2, H2⟩, ⟨%d3, H3⟩, ⟨%d4, H4⟩⟩
  iapply ((runFirst (F := F) c (grid0.coords t) (ms0 t) (hs0 t) (ms1 t) (hs1 t) (ms2 t) (hs2 t) (ms3 t) (hs3 t) (ms4 t) (hs4 t) scM (Memref.isWhole_whole _) ((hFirst t).mpr h0) ((hFresh t).mpr he) (fun h => by have := (hAdding t).mp h; omega) (iblk m c 0 t) (iblk m c 1 t) (iblk m c 2 t) (iblk m c 3 t)).2.2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, ⟨%es0, HS0⟩⟩
  isplitl [HS0 Hg]
  · isplitl [HS0]
    · unfold owns; iexists _; isplitr
      swap; · iexact HS0
      ipureintro
      rw [hidden_at m c t hz ((hFirst t).mpr h0) ((hFresh t).mpr he) (fun h => by have := (hAdding t).mp h; omega)]
      unfold soutFirst
      exact View.read_writes_of_cover _ _ _ _ _ (coverFirstS (F := F) c (grid0.coords t) (ms0 t) (hs0 t) (ms1 t) (hs1 t) (ms2 t) (hs2 t) (ms3 t) (hs3 t) (ms4 t) (hs4 t) scM (Memref.isWhole_whole _) ((hFirst t).mpr h0) ((hFresh t).mpr he) (fun h => by have := (hAdding t).mp h; omega) (iblk m c 0 t) (iblk m c 1 t) (iblk m c 2 t) (iblk m c 3 t))
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro
  exact View.read_writes_of_cover _ _ _ _ _ (coverFirstO (F := F) c (grid0.coords t) (ms0 t) (hs0 t) (ms1 t) (hs1 t) (ms2 t) (hs2 t) (ms3 t) (hs3 t) (ms4 t) (hs4 t) scM (Memref.isWhole_whole _) ((hFirst t).mpr h0) ((hFresh t).mpr he) (fun h => by have := (hAdding t).mp h; omega) (iblk m c 0 t) (iblk m c 1 t) (iblk m c 2 t) (iblk m c 3 t))

end Cert.KernelIdeal.Body

end
-- ==== Proof.IdealBodyFresh.lean ====
/-
  The body obligation at a later point with contraction coordinate zero: the scratch is handed over and taken back at the
  hidden projections, the output's buffer taken back at the point's products.
-/
import proofs.«163337_g50706383897208_cont_sun_m_271_35_alg».proof.Proof.IdealData

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_fresh (c : Dev nD) (t : Fin cfg0.N) (he : t.val % 2 = 0) (h0 : ¬ t.val % 32 = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, PhiS_pos m c (t.val + 1) (Nat.succ_ne_zero _)]
  rw [show (dats m 0 c).Φ t.castSucc = PhiS m c t.val from rfl]
  have hN : t.val < 32 := lt_of_lt_of_eq t.isLt N32
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]

  have hz : t.val ≠ 0 := by omega
  rw [PhiS_pos m c _ hz]
  unfold outAt; rw [dif_pos he]; unfold outEven; rw [dif_neg h0]
  unfold outFresh
  iintro ⟨⟨HS0, Hg⟩, Ho, ⟨%d0, H0⟩, ⟨%d1, H1⟩, ⟨%d2, H2⟩, ⟨%d3, H3⟩, ⟨%d4, H4⟩⟩
  iapply ((runFresh (F := F) c (grid0.coords t) (ms0 t) (hs0 t) (ms1 t) (hs1 t) (ms2 t) (hs2 t) (ms3 t) (hs3 t) (ms4 t) (hs4 t) scM (Memref.isWhole_whole _) (fun h => h0 ((hFirst t).mp h)) ((hFresh t).mpr he) (fun h => by have := (hAdding t).mp h; omega) (iblk m c 0 t) (iblk m c 1 t) (iblk m c 2 t) (iblk m c 3 t) (hidden m c)).2 Set.univ _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro
  exact View.read_writes_of_cover _ _ _ _ _ (coverFresh (F := F) c (grid0.coords t) (ms0 t) (hs0 t) (ms1 t) (hs1 t) (ms2 t) (hs2 t) (ms3 t) (hs3 t) (ms4 t) (hs4 t) scM (Memref.isWhole_whole _) (fun h => h0 ((hFirst t).mp h)) ((hFresh t).mpr he) (fun h => by have := (hAdding t).mp h; omega) (iblk m c 0 t) (iblk m c 1 t) (iblk m c 2 t) (iblk m c 3 t) (hidden m c))

end Cert.KernelIdeal.Body

end
-- ==== Proof.IdealBodyAdding.lean ====
/-
  The body obligation at a point with contraction coordinate one: the output's buffer is handed over at what the point
  before left and taken back at that plus the point's products; the scratch is handed over and taken back at the hidden
  projections.
-/
import proofs.«163337_g50706383897208_cont_sun_m_271_35_alg».proof.Proof.IdealData

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_adding (c : Dev nD) (t : Fin cfg0.N) (he : ¬ t.val % 2 = 0) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, PhiS_pos m c (t.val + 1) (Nat.succ_ne_zero _)]
  rw [show (dats m 0 c).Φ t.castSucc = PhiS m c t.val from rfl]
  have hN : t.val < 32 := lt_of_lt_of_eq t.isLt N32
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]

  have h1 : t.val % 2 = 1 := by omega
  have hz : t.val ≠ 0 := by omega
  rw [PhiS_pos m c _ hz]
  simp only [before4_adding m c t h1]
  unfold outAt; rw [dif_neg he]
  unfold outAdding
  iintro ⟨⟨HS0, Hg⟩, Ho, ⟨%d0, H0⟩, ⟨%d1, H1⟩, ⟨%d2, H2⟩, ⟨%d3, H3⟩, ⟨%d4, H4⟩⟩
  iapply ((runAdding (F := F) c (grid0.coords t) (ms0 t) (hs0 t) (ms1 t) (hs1 t) (ms2 t) (hs2 t) (ms3 t) (hs3 t) (ms4 t) (hs4 t) scM (Memref.isWhole_whole _) (fun h => by have := (hFirst t).mp h; omega) (fun h => he ((hFresh t).mp h)) ((hAdding t).mpr (by omega)) (iblk m c 0 t) (iblk m c 1 t) (iblk m c 2 t) (iblk m c 3 t) (outEven m c (prev t) (by show (t.val - 1) % 2 = 0; omega)) (hidden m c)).2 Set.univ _)
  isplitl [H0]; · iexact H0
  isplitl [H1]; · iexact H1
  isplitl [H2]; · iexact H2
  isplitl [H3]; · iexact H3
  isplitl [H4]; · iexact H4
  isplitl [HS0]; · iexact HS0
  iintro ⟨H0, H1, H2, H3, ⟨%e4, H4⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro
  exact View.read_writes_of_cover _ _ _ _ _ (coverAdding (F := F) c (grid0.coords t) (ms0 t) (hs0 t) (ms1 t) (hs1 t) (ms2 t) (hs2 t) (ms3 t) (hs3 t) (ms4 t) (hs4 t) scM (Memref.isWhole_whole _) (fun h => by have := (hFirst t).mp h; omega) (fun h => he ((hFresh t).mp h)) ((hAdding t).mpr (by omega)) (iblk m c 0 t) (iblk m c 1 t) (iblk m c 2 t) (iblk m c 3 t) (outEven m c (prev t) (by show (t.val - 1) % 2 = 0; omega)) (hidden m c))

end Cert.KernelIdeal.Body

end
-- ==== Proof.IdealFrame.lean ====
/-
  The body obligation at every point (by the point's case), the run of the whole program over the proof data, and the frame:
  the program terminates without a fault and its six argument arrays end unchanged.
-/
import proofs.«163337_g50706383897208_cont_sun_m_271_35_alg».proof.Proof.IdealBodyFirst
import proofs.«163337_g50706383897208_cont_sun_m_271_35_alg».proof.Proof.IdealBodyFresh
import proofs.«163337_g50706383897208_cont_sun_m_271_35_alg».proof.Proof.IdealBodyAdding

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases he : t.val % 2 = 0
  · by_cases h0 : t.val % 32 = 0
    · exact sound_first m c t he h0
    · exact sound_fresh m c t he h0
  · exact sound_adding m c t he

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last point the invariant gives the class's back: the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last, N32]; decide), PhiA_eq]
  iintro ⟨HS0, Hg⟩
  isplitl [HS0]
  · iexists _; iexact HS0
  iexact Hg

/-! ## The run and the frame -/

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.Spec.lean ====
/-
  The specification both programs are compared against, as functions of the six argument arrays read at an index on the
  extended reals, over the literal shapes: x : [4096, 256], adjs : [2, 4096, 4096], W1, W2 : [128, 64], b1, b2 : [64].

  hid1 k c = (sum over d < 128 of x (k, d) * W1 (d, c)) + b1 c          -- the left half of row k of x through W1
  hid2 k c = (sum over d < 128 of x (k, 128 + d) * W2 (d, c)) + b2 c    -- the right half through W2
  G (r, c) = (sum over k < 4096 of adjs (0, r, k) * hid1 k c) + (sum over k < 4096 of adjs (1, r, k) * hid2 k c)

  GK is the same result accumulated in two halves of the contraction, each half adding both adjacency products first:
  GK (r, c) = (A0 + B0) + (A1 + B1), where A_j, B_j sum over the 2048 contraction indices 2048 j ... 2048 j + 2047.
  GK = G needs only that addition on the extended reals is commutative and associative (no finiteness).
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![4096, 256]⟩
abbrev SA : Shape := ⟨3, ![2, 4096, 4096]⟩
abbrev SW : Shape := ⟨2, ![128, 64]⟩
abbrev SB : Shape := ⟨1, ![64]⟩
abbrev SO : Shape := ⟨2, ![4096, 64]⟩

/-- Column `d` of the left half of a row of `x`. -/
def colL (d : Fin 128) : Fin 256 := ⟨d.val, Nat.lt_of_lt_of_le d.isLt (by norm_num)⟩
/-- Column `d` of the right half of a row of `x`. -/
def colR (d : Fin 128) : Fin 256 := ⟨128 + d.val, by have := d.isLt; omega⟩
/-- Contraction index `k` of the first half. -/
def lo (k : Fin 2048) : Fin 4096 := ⟨k.val, Nat.lt_of_lt_of_le k.isLt (by norm_num)⟩
/-- Contraction index `k` of the second half. -/
def hi (k : Fin 2048) : Fin 4096 := ⟨2048 + k.val, by have := k.isLt; omega⟩

/-- The first hidden projection at row `k`, column `c`. -/
def hid1 (x : SX.Idx → EReal) (W1 : SW.Idx → EReal) (b1 : SB.Idx → EReal) (k : Fin 4096) (c : Fin 64) : EReal :=
  (∑ d : Fin 128, x (ix2 k (colL d)) * W1 (ix2 d c)) + b1 (ix1 c)
/-- The second hidden projection at row `k`, column `c`. -/
def hid2 (x : SX.Idx → EReal) (W2 : SW.Idx → EReal) (b2 : SB.Idx → EReal) (k : Fin 4096) (c : Fin 64) : EReal :=
  (∑ d : Fin 128, x (ix2 k (colR d)) * W2 (ix2 d c)) + b2 (ix1 c)

/-- The result: both adjacency products, each over the whole contraction, added. -/
def G (x : SX.Idx → EReal) (adjs : SA.Idx → EReal) (W1 : SW.Idx → EReal) (b1 : SB.Idx → EReal) (W2 : SW.Idx → EReal)
    (b2 : SB.Idx → EReal) : SO.Idx → EReal := fun i =>
  (∑ k : Fin 4096, adjs (ix3 (0 : Fin 2) (i 0) k) * hid1 x W1 b1 k (i 1))
    + (∑ k : Fin 4096, adjs (ix3 (1 : Fin 2) (i 0) k) * hid2 x W2 b2 k (i 1))

/-- One half of the contraction: both adjacency products over the 2048 indices `e k`, added. -/
def part (x : SX.Idx → EReal) (adjs : SA.Idx → EReal) (W1 : SW.Idx → EReal) (b1 : SB.Idx → EReal) (W2 : SW.Idx → EReal)
    (b2 : SB.Idx → EReal) (e : Fin 2048 → Fin 4096) (r : Fin 4096) (c : Fin 64) : EReal :=
  (∑ k : Fin 2048, adjs (ix3 (0 : Fin 2) r (e k)) * hid1 x W1 b1 (e k) c)
    + (∑ k : Fin 2048, adjs (ix3 (1 : Fin 2) r (e k)) * hid2 x W2 b2 (e k) c)

/-- The result accumulated half by half. -/
def GK (x : SX.Idx → EReal) (adjs : SA.Idx → EReal) (W1 : SW.Idx → EReal) (b1 : SB.Idx → EReal) (W2 : SW.Idx → EReal)
    (b2 : SB.Idx → EReal) : SO.Idx → EReal := fun i =>
  part x adjs W1 b1 W2 b2 lo (i 0) (i 1) + part x adjs W1 b1 W2 b2 hi (i 0) (i 1)

end Cert.Spec

end
-- ==== Proof.PayAt.lean ====
/-
  The four payloads of the idealized kernel read at an index, at the ideal instance (vectors are functions from the
  index set to the extended reals): each hidden projection is a sum of 128 products plus a bias; each accumulation
  step is the sum of two sums of 2048 products, stored or added to what the output block already holds.
-/
import proofs.«163337_g50706383897208_cont_sun_m_271_35_alg».proof.Proof.Gen.KernelIdeal.Skeleton
import proofs.«163337_g50706383897208_cont_sun_m_271_35_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.PayAt

open Cert.KernelIdeal Cert.KernelIdeal.Facts₀ Idealize.ShloMosaic Idealize.ShloMosaic.ValueIdx Idealize.SL.Sem

theorem mm1_apply_l0 (i : S4096x64.Idx) (q : dot_S4096x128_S128x64_S4096x64_1_0_0_1_n_n.contr.Idx) : (dot_S4096x128_S128x64_S4096x64_1_0_0_1_n_n.lhsIdx i q 0).val = (i 0).val := by
  unfold DotDims.lhsIdx
  rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
  rfl
theorem mm1_apply_l1 (i : S4096x64.Idx) (q : dot_S4096x128_S128x64_S4096x64_1_0_0_1_n_n.contr.Idx) : (dot_S4096x128_S128x64_S4096x64_1_0_0_1_n_n.lhsIdx i q 1).val = (q ⟨0, by decide⟩).val :=
  dot_S4096x128_S128x64_S4096x64_1_0_0_1_n_n.lhsIdx_val_of_single rfl i q
theorem mm1_apply_r0 (i : S4096x64.Idx) (q : dot_S4096x128_S128x64_S4096x64_1_0_0_1_n_n.contr.Idx) : (dot_S4096x128_S128x64_S4096x64_1_0_0_1_n_n.rhsIdx i q 0).val = (q ⟨0, by decide⟩).val :=
  dot_S4096x128_S128x64_S4096x64_1_0_0_1_n_n.rhsIdx_val_of_single rfl i q
theorem mm1_apply_r1 (i : S4096x64.Idx) (q : dot_S4096x128_S128x64_S4096x64_1_0_0_1_n_n.contr.Idx) : (dot_S4096x128_S128x64_S4096x64_1_0_0_1_n_n.rhsIdx i q 1).val = (i 1).val := by
  unfold DotDims.rhsIdx
  rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
  rfl

/-- The [4096,128] by [128,64] product into a zero accumulator, at row `r` and column `c`: the sum over the contraction
    index of the products of the operands' entries. -/
theorem mm1_apply (X : FVec Ideal S4096x128 .f32) (W : FVec Ideal S128x64 .f32) (r : Fin 4096) (c : Fin 64) :
    matmul (F := Ideal) dot_S4096x128_S128x64_S4096x64_1_0_0_1_n_n none X W (constant (F := Ideal) S4096x64 .f32 0x00000000#32) (ix2 r c)
      = ∑ k : Fin 128, X (ix2 r k) * W (ix2 k c) := by
  simp only [matmul]
  rw [Ideal.matmul_constant_zero_apply, ← Equiv.sum_comp (contrEquiv1 dot_S4096x128_S128x64_S4096x64_1_0_0_1_n_n 128 rfl rfl).symm]
  refine Finset.sum_congr rfl fun k _ => ?_
  have hk := contrEquiv1_symm_val dot_S4096x128_S128x64_S4096x64_1_0_0_1_n_n 128 rfl rfl k
  have el : dot_S4096x128_S128x64_S4096x64_1_0_0_1_n_n.lhsIdx (ix2 r c) ((contrEquiv1 dot_S4096x128_S128x64_S4096x64_1_0_0_1_n_n 128 rfl rfl).symm k) = ix2 r k := funext fun a => Fin.ext (by
    match a with
    | ⟨0, _⟩ => exact mm1_apply_l0 _ _
    | ⟨1, _⟩ => exact (mm1_apply_l1 _ _).trans hk)
  have er : dot_S4096x128_S128x64_S4096x64_1_0_0_1_n_n.rhsIdx (ix2 r c) ((contrEquiv1 dot_S4096x128_S128x64_S4096x64_1_0_0_1_n_n 128 rfl rfl).symm k) = ix2 k c := funext fun a => Fin.ext (by
    match a with
    | ⟨0, _⟩ => exact (mm1_apply_r0 _ _).trans hk
    | ⟨1, _⟩ => exact mm1_apply_r1 _ _)
  rw [el, er]

theorem mm2_apply_l0 (i : S256x64.Idx) (q : dot_S256x2048_S2048x64_S256x64_1_0_0_1_n_n.contr.Idx) : (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem mm2_apply_l1 (i : S256x64.Idx) (q : dot_S256x2048_S2048x64_S256x64_1_0_0_1_n_n.contr.Idx) : (dot_S256x2048_S2048x64_S256x64_1_0_0_1_n_n.lhsIdx i q 1).val = (q ⟨0, by decide⟩).val :=
  dot_S256x2048_S2048x64_S256x64_1_0_0_1_n_n.lhsIdx_val_of_single rfl i q
theorem mm2_apply_r0 (i : S256x64.Idx) (q : dot_S256x2048_S2048x64_S256x64_1_0_0_1_n_n.contr.Idx) : (dot_S256x2048_S2048x64_S256x64_1_0_0_1_n_n.rhsIdx i q 0).val = (q ⟨0, by decide⟩).val :=
  dot_S256x2048_S2048x64_S256x64_1_0_0_1_n_n.rhsIdx_val_of_single rfl i q
theorem mm2_apply_r1 (i : S256x64.Idx) (q : dot_S256x2048_S2048x64_S256x64_1_0_0_1_n_n.contr.Idx) : (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- The [256,2048] by [2048,64] product into a zero accumulator, at row `r` and column `c`: the sum over the contraction
    index of the products of the operands' entries. -/
theorem mm2_apply (X : FVec Ideal S256x2048 .f32) (W : FVec Ideal S2048x64 .f32) (r : Fin 256) (c : Fin 64) :
    matmul (F := Ideal) dot_S256x2048_S2048x64_S256x64_1_0_0_1_n_n none X W (constant (F := Ideal) S256x64 .f32 0x00000000#32) (ix2 r c)
      = ∑ k : Fin 2048, X (ix2 r k) * W (ix2 k c) := by
  simp only [matmul]
  rw [Ideal.matmul_constant_zero_apply, ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 r c) ((contrEquiv1 dot_S256x2048_S2048x64_S256x64_1_0_0_1_n_n 2048 rfl rfl).symm k) = ix2 r k := funext fun a => Fin.ext (by
    match a with
    | ⟨0, _⟩ => exact mm2_apply_l0 _ _
    | ⟨1, _⟩ => exact (mm2_apply_l1 _ _).trans hk)
  have er : dot_S256x2048_S2048x64_S256x64_1_0_0_1_n_n.rhsIdx (ix2 r c) ((contrEquiv1 dot_S256x2048_S2048x64_S256x64_1_0_0_1_n_n 2048 rfl rfl).symm k) = ix2 k c := funext fun a => Fin.ext (by
    match a with
    | ⟨0, _⟩ => exact (mm2_apply_r0 _ _).trans hk
    | ⟨1, _⟩ => exact mm2_apply_r1 _ _)
  rw [el, er]

/-- A [1,128,64] block viewed as [128,64]: entry (d, c) is entry (0, d, c). -/
theorem drop_w (v : Vec Ideal S1x128x64 .f32) (d : Fin 128) (c : Fin 64) :
    shapeCast S128x64 v shapeCasts_S1x128x64_S128x64 (ix2 d c) = v (ix3 (0 : Fin 1) d c) :=
  shapeCast_apply v shapeCasts_S1x128x64_S128x64 (ix2 d c) (ix3 (0 : Fin 1) d c)
    (by rewrite [Shape.rowMajor_val_three, Shape.rowMajor_val_two]; show (0 * 128 + d.val) * 64 + c.val = d.val * 64 + c.val; omega)

/-- A [4096,64] matrix stored as a [1,4096,64] block: entry (0, r, c) is entry (r, c). -/
theorem add_unit (v : FVec Ideal S4096x64 .f32) (r : Fin 4096) (c : Fin 64) :
    shapeCast S1x4096x64 v shapeCasts_S4096x64_S1x4096x64 (ix3 (0 : Fin 1) r c) = v (ix2 r c) :=
  shapeCast_apply v shapeCasts_S4096x64_S1x4096x64 (ix3 (0 : Fin 1) r c) (ix2 r c)
    (by rewrite [Shape.rowMajor_val_three, Shape.rowMajor_val_two]; show r.val * 64 + c.val = (0 * 4096 + r.val) * 64 + c.val; omega)

/-- The bias row [1,1,64], viewed [1,64] and repeated down the 4096 rows: entry (r, c) is entry (0, 0, c). -/
theorem bias_apply (v : Vec Ideal S1x1x64 .f32) (r : Fin 4096) (c : Fin 64) :
    broadcastTo S4096x64 (shapeCast S1x64 v shapeCasts_S1x1x64_S1x64) broadcasts_S1x64_S4096x64 (ix2 r c)
      = v (ix3 (0 : Fin 1) (0 : Fin 1) c) := by
  rw [broadcastTo_apply _ broadcasts_S1x64_S4096x64 (ix2 r c) (ix2 (0 : Fin 1) c) (fun a => match a with
    | ⟨0, _⟩ => by show 0 = if (1 : Nat) = 1 then 0 else _; rw [if_pos rfl]
    | ⟨1, _⟩ => by show c.val = if (64 : Nat) = 1 then 0 else c.val; rw [if_neg (by decide)])]
  exact shapeCast_apply v shapeCasts_S1x1x64_S1x64 (ix2 (0 : Fin 1) c) (ix3 (0 : Fin 1) (0 : Fin 1) c)
    (by rewrite [Shape.rowMajor_val_three, Shape.rowMajor_val_two]; show (0 * 1 + 0) * 64 + c.val = 0 * 64 + c.val; omega)

/-- The first hidden projection at row `r`, column `c`: the left half of row `r` through the first weight block, plus its bias. -/
theorem pay1_apply (v25 : Vec Ideal S4096x256 .f32) (v27 : Vec Ideal S1x128x64 .f32) (v30 : Vec Ideal S1x1x64 .f32)
    (r : Fin 4096) (c : Fin 64) :
    Gen.k0_pay1 (F := Ideal) v25 v27 v30 (ix3 (0 : Fin 1) r c)
      = (∑ d : Fin 128, v25 (ix2 r (Cert.Spec.colL d)) * v27 (ix3 (0 : Fin 1) d c)) + v30 (ix3 (0 : Fin 1) (0 : Fin 1) c) := by
  unfold Gen.k0_pay1
  rw [add_unit, addf_apply, mm1_apply, bias_apply]
  congr 1
  refine Finset.sum_congr rfl fun d _ => ?_
  rw [drop_w]
  congr 1
  exact extractStridedSlice_apply ![0, 0] v25 slices_S4096x256_o0_0_S4096x128 (ix2 r d) (ix2 r (Cert.Spec.colL d)) (fun a => match a with
    | ⟨0, _⟩ => by show r.val = 0 + r.val; omega
    | ⟨1, _⟩ => by show d.val = 0 + d.val; omega)

/-- The second hidden projection at row `r`, column `c`: the right half of row `r` through the second weight block, plus its bias. -/
theorem pay2_apply (v25 : Vec Ideal S4096x256 .f32) (v38 : Vec Ideal S1x128x64 .f32) (v41 : Vec Ideal S1x1x64 .f32)
    (r : Fin 4096) (c : Fin 64) :
    Gen.k0_pay2 (F := Ideal) v25 v38 v41 (ix3 (0 : Fin 1) r c)
      = (∑ d : Fin 128, v25 (ix2 r (Cert.Spec.colR d)) * v38 (ix3 (0 : Fin 1) d c)) + v41 (ix3 (0 : Fin 1) (0 : Fin 1) c) := by
  unfold Gen.k0_pay2
  rw [add_unit, addf_apply, mm1_apply, bias_apply]
  congr 1
  refine Finset.sum_congr rfl fun d _ => ?_
  rw [drop_w]
  congr 1
  exact extractStridedSlice_apply ![0, 128] v25 slices_S4096x256_o0_128_S4096x128 (ix2 r d) (ix2 r (Cert.Spec.colR d)) (fun a => match a with
    | ⟨0, _⟩ => by show r.val = 0 + r.val; omega
    | ⟨1, _⟩ => by show 128 + d.val = 128 + d.val; omega)

/-- A [1,256,2048] block viewed as [256,2048]: entry (r, k) is entry (0, r, k). -/
theorem drop_a (v : Vec Ideal S1x256x2048 .f32) (r : Fin 256) (k : Fin 2048) :
    shapeCast S256x2048 v shapeCasts_S1x256x2048_S256x2048 (ix2 r k) = v (ix3 (0 : Fin 1) r k) :=
  shapeCast_apply v shapeCasts_S1x256x2048_S256x2048 (ix2 r k) (ix3 (0 : Fin 1) r k)
    (by rewrite [Shape.rowMajor_val_three, Shape.rowMajor_val_two]; show (0 * 256 + r.val) * 2048 + k.val = r.val * 2048 + k.val; omega)

/-- A [1,2048,64] block viewed as [2048,64]: entry (k, c) is entry (0, k, c). -/
theorem drop_h (v : Vec Ideal S1x2048x64 .f32) (k : Fin 2048) (c : Fin 64) :
    shapeCast S2048x64 v shapeCasts_S1x2048x64_S2048x64 (ix2 k c) = v (ix3 (0 : Fin 1) k c) :=
  shapeCast_apply v shapeCasts_S1x2048x64_S2048x64 (ix2 k c) (ix3 (0 : Fin 1) k c)
    (by rewrite [Shape.rowMajor_val_three, Shape.rowMajor_val_two]; show (0 * 2048 + k.val) * 64 + c.val = k.val * 64 + c.val; omega)

/-- One accumulation step at row `r`, column `c`: the two adjacency blocks against the two blocks of hidden rows. -/
theorem pay3_apply (v6 v12 : Vec Ideal S1x256x2048 .f32) (v9 v15 : Vec Ideal S1x2048x64 .f32) (r : Fin 256) (c : Fin 64) :
    Gen.k0_pay3 (F := Ideal) v6 v9 v12 v15 (ix2 r c)
      = (∑ k : Fin 2048, v6 (ix3 (0 : Fin 1) r k) * v9 (ix3 (0 : Fin 1) k c))
        + (∑ k : Fin 2048, v12 (ix3 (0 : Fin 1) r k) * v15 (ix3 (0 : Fin 1) k c)) := by
  unfold Gen.k0_pay3
  rw [addf_apply, mm2_apply, mm2_apply]
  congr 1
  · exact Finset.sum_congr rfl fun k _ => by rw [drop_a, drop_h]
  · exact Finset.sum_congr rfl fun k _ => by rw [drop_a, drop_h]

/-- The adding step: what the output block holds plus the accumulation step. -/
theorem pay4_apply (v6 v12 : Vec Ideal S1x256x2048 .f32) (v9 v15 : Vec Ideal S1x2048x64 .f32) (v25 : Vec Ideal S256x64 .f32)
    (r : Fin 256) (c : Fin 64) :
    Gen.k0_pay4 (F := Ideal) v6 v9 v12 v15 v25 (ix2 r c) = v25 (ix2 r c) + Gen.k0_pay3 (F := Ideal) v6 v9 v12 v15 (ix2 r c) := by
  unfold Gen.k0_pay4
  rw [addf_apply, shapeCast_self]

end Cert.KernelIdeal.PayAt

end
-- ==== Proof.HostArrays.lean ====
/-
  The arrays and blocks the idealized kernel is handed. Before the region the host stacks the two weight matrices
  into one [2,128,64] array and the two bias vectors into one [2,1,64] array; read at an index, slice 0 of each is the
  first matrix (vector) and slice 1 the second. The first three windows hand the kernel whole arrays at every grid
  point; the fourth hands it, at point (i, j), rows 256 i … 256 i + 255 and columns 2048 j … 2048 j + 2047 of both
  adjacency matrices.
-/
import proofs.«163337_g50706383897208_cont_sun_m_271_35_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.HostArrays

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The stacked weights as the region finds them: the two weight matrices, each given a leading unit axis, one after
    the other along that axis. -/
theorem V_v2_eq (c : Dev nD) :
    (Gen.V m c main_v2 : S2x128x64.Idx → Elt F .f32)
      = concatenate S2x128x64 0
          [⟨S1x128x64, broadcastInDim S1x128x64 ![1, 2] bcast_S128x64_S1x128x64_1_2 (m ((c : Thread nD τ).loc main_arg2) : S128x64.Idx → Elt F .f32)⟩,
           ⟨S1x128x64, broadcastInDim S1x128x64 ![1, 2] bcast_S128x64_S1x128x64_1_2 (m ((c : Thread nD τ).loc main_arg4) : S128x64.Idx → Elt F .f32)⟩]
          concatenates_S1x128x64_S1x128x64_S2x128x64_d0 := by
  dsimp only [Gen.V, Gen.hostOps0]
  after_results
  try rfl

/-- The stacked biases as the region finds them: the two bias vectors as rows, one after the other, then viewed
    [2,1,64]. -/
theorem V_v6_eq (c : Dev nD) :
    (Gen.V m c main_v6 : S2x1x64.Idx → Elt F .f32)
      = shapeCast S2x1x64 (concatenate S2x64 0
          [⟨S1x64, broadcastInDim S1x64 ![1] bcast_S64_S1x64_1 (m ((c : Thread nD τ).loc main_arg3) : S64.Idx → Elt F .f32)⟩,
           ⟨S1x64, broadcastInDim S1x64 ![1] bcast_S64_S1x64_1 (m ((c : Thread nD τ).loc main_arg5) : S64.Idx → Elt F .f32)⟩]
          concatenates_S1x64_S1x64_S2x64_d0) shapeCasts_S2x64_S2x1x64 := by
  dsimp only [Gen.V, Gen.hostOps0]
  after_results
  try rfl

/-- The stacked weights at an index: slice `k` is the first weight matrix for `k = 0`, the second otherwise. -/
theorem V_v2_apply (c : Dev nD) (k : Fin 2) (d : Fin 128) (e : Fin 64) :
    (Gen.V m c main_v2 : S2x128x64.Idx → Elt F .f32) (ix3 k d e)
      = if k.val = 0 then (m ((c : Thread nD τ).loc main_arg2) : S128x64.Idx → Elt F .f32) (ix2 d e)
        else (m ((c : Thread nD τ).loc main_arg4) : S128x64.Idx → Elt F .f32) (ix2 d e) := by
  rw [V_v2_eq]
  have hb : ∀ (x : S128x64.Idx → Elt F .f32),
      broadcastInDim S1x128x64 ![1, 2] bcast_S128x64_S1x128x64_1_2 x (ix3 (0 : Fin 1) d e) = x (ix2 d e) := fun x =>
    broadcastInDim_apply _ bcast_S128x64_S1x128x64_1_2 x (ix3 (0 : Fin 1) d e) (ix2 d e) (fun a => match a with
      | ⟨0, _⟩ => by show d.val = if (128 : Nat) = 1 then 0 else d.val; rw [if_neg (by decide)]
      | ⟨1, _⟩ => by show e.val = if (64 : Nat) = 1 then 0 else e.val; rw [if_neg (by decide)])
  by_cases hk : k.val = 0
  · rw [if_pos hk, concatenate_pair_apply_left (t := S2x128x64) (s₁ := S1x128x64) (s₂ := S1x128x64) (0 : Fin 3) _ _ concatenates_S1x128x64_S1x128x64_S2x128x64_d0 (ix3 k d e) rfl
      (ix3 (0 : Fin 1) d e) (fun b => match b with
        | ⟨0, _⟩ => by show 0 = k.val; omega
        | ⟨1, _⟩ => rfl
        | ⟨2, _⟩ => rfl)]
    exact hb _
  · rw [if_neg hk, concatenate_pair_apply_right (t := S2x128x64) (s₁ := S1x128x64) (s₂ := S1x128x64) (0 : Fin 3) _ _ concatenates_S1x128x64_S1x128x64_S2x128x64_d0 (ix3 k d e) rfl rfl
      (ix3 (0 : Fin 1) d e) (fun b hne => match b, hne with
        | ⟨0, _⟩, hne => absurd rfl hne
        | ⟨1, _⟩, _ => rfl
        | ⟨2, _⟩, _ => rfl)
      (by show 0 + 1 = k.val; have := k.isLt; omega)]
    exact hb _

/-- The stacked biases at an index: row `k` is the first bias vector for `k = 0`, the second otherwise. -/
theorem V_v6_apply (c : Dev nD) (k : Fin 2) (e : Fin 64) :
    (Gen.V m c main_v6 : S2x1x64.Idx → Elt F .f32) (ix3 k (0 : Fin 1) e)
      = if k.val = 0 then (m ((c : Thread nD τ).loc main_arg3) : S64.Idx → Elt F .f32) (ix1 e)
        else (m ((c : Thread nD τ).loc main_arg5) : S64.Idx → Elt F .f32) (ix1 e) := by
  rw [V_v6_eq, shapeCast_apply _ shapeCasts_S2x64_S2x1x64 (ix3 k (0 : Fin 1) e) (ix2 k e)
    (by rewrite [Shape.rowMajor_val_three, Shape.rowMajor_val_two]; show k.val * 64 + e.val = (k.val * 1 + 0) * 64 + e.val; omega)]
  have hb : ∀ (x : S64.Idx → Elt F .f32),
      broadcastInDim S1x64 ![1] bcast_S64_S1x64_1 x (ix2 (0 : Fin 1) e) = x (ix1 e) := fun x =>
    broadcastInDim_apply _ bcast_S64_S1x64_1 x (ix2 (0 : Fin 1) e) (ix1 e) (fun a => match a with
      | ⟨0, _⟩ => by show e.val = if (64 : Nat) = 1 then 0 else e.val; rw [if_neg (by decide)])
  by_cases hk : k.val = 0
  · rw [if_pos hk, concatenate_pair_apply_left (t := S2x64) (s₁ := S1x64) (s₂ := S1x64) (0 : Fin 2) _ _ concatenates_S1x64_S1x64_S2x64_d0 (ix2 k e) rfl
      (ix2 (0 : Fin 1) e) (fun b => match b with
        | ⟨0, _⟩ => by show 0 = k.val; omega
        | ⟨1, _⟩ => rfl)]
    exact hb _
  · rw [if_neg hk, concatenate_pair_apply_right (t := S2x64) (s₁ := S1x64) (s₂ := S1x64) (0 : Fin 2) _ _ concatenates_S1x64_S1x64_S2x64_d0 (ix2 k e) rfl rfl
      (ix2 (0 : Fin 1) e) (fun b hne => match b, hne with
        | ⟨0, _⟩, hne => absurd rfl hne
        | ⟨1, _⟩, _ => rfl)
      (by show 0 + 1 = k.val; have := k.isLt; omega)]
    exact hb _

/-- Window 0's block is the whole first argument at every point. -/
theorem iblk0_apply (c : Dev nD) (t : Fin cfg0.N) (y : S4096x256.Idx) :
    (Gen.iblk m c 0 t : S4096x256.Idx → Elt F .f32) y = (m ((c : Thread nD τ).loc main_arg0) : S4096x256.Idx → Elt F .f32) y := by
  have hi : win0_0.index t 0 = 0 ∧ win0_0.index t 1 = 0 :=
    (by decide +kernel : ∀ t : Fin grid0.N, win0_0.index t 0 = 0 ∧ win0_0.index t 1 = 0) t
  unfold iblk
  rw [View.read_apply]
  show V m c main_arg0 _ = m (c.tc.loc main_arg0) _
  rw [V_main_arg0]
  congr 1
  funext a
  apply Fin.ext
  match a with
  | ⟨0, _⟩ => show win0_0.index t 0 * 4096 + 1 * (y 0).val = (y 0).val; rw [hi.1]; omega
  | ⟨1, _⟩ => show win0_0.index t 1 * 256 + 1 * (y 1).val = (y 1).val; rw [hi.2]; omega

/-- Window 1's block is the whole array of stacked weights at every point. -/
theorem iblk1_apply (c : Dev nD) (t : Fin cfg0.N) (y : S2x128x64.Idx) :
    (Gen.iblk m c 1 t : S2x128x64.Idx → Elt F .f32) y = (Gen.V m c main_v2 : S2x128x64.Idx → Elt F .f32) y := by
  have hi : win0_1.index t 0 = 0 ∧ win0_1.index t 1 = 0 ∧ win0_1.index t 2 = 0 :=
    (by decide +kernel : ∀ t : Fin grid0.N, win0_1.index t 0 = 0 ∧ win0_1.index t 1 = 0 ∧ win0_1.index t 2 = 0) t
  unfold iblk
  rw [View.read_apply]
  show V m c main_v2 _ = V m c main_v2 _
  congr 1
  funext a
  apply Fin.ext
  match a with
  | ⟨0, _⟩ => show win0_1.index t 0 * 2 + 1 * (y 0).val = (y 0).val; rw [hi.1]; omega
  | ⟨1, _⟩ => show win0_1.index t 1 * 128 + 1 * (y 1).val = (y 1).val; rw [hi.2.1]; omega
  | ⟨2, _⟩ => show win0_1.index t 2 * 64 + 1 * (y 2).val = (y 2).val; rw [hi.2.2]; omega

/-- Window 2's block is the whole array of stacked biases at every point. -/
theorem iblk2_apply (c : Dev nD) (t : Fin cfg0.N) (y : S2x1x64.Idx) :
    (Gen.iblk m c 2 t : S2x1x64.Idx → Elt F .f32) y = (Gen.V m c main_v6 : S2x1x64.Idx → Elt F .f32) y := by
  have hi : win0_2.index t 0 = 0 ∧ win0_2.index t 1 = 0 ∧ win0_2.index t 2 = 0 :=
    (by decide +kernel : ∀ t : Fin grid0.N, win0_2.index t 0 = 0 ∧ win0_2.index t 1 = 0 ∧ win0_2.index t 2 = 0) t
  unfold iblk
  rw [View.read_apply]
  show V m c main_v6 _ = V m c main_v6 _
  congr 1
  funext a
  apply Fin.ext
  match a with
  | ⟨0, _⟩ => show win0_2.index t 0 * 2 + 1 * (y 0).val = (y 0).val; rw [hi.1]; omega
  | ⟨1, _⟩ => show win0_2.index t 1 * 1 + 1 * (y 1).val = (y 1).val; rw [hi.2.1]; omega
  | ⟨2, _⟩ => show win0_2.index t 2 * 64 + 1 * (y 2).val = (y 2).val; rw [hi.2.2]; omega

/-- Window 3's block at point `t` = (i, j), i = t / 2, j = t % 2: both adjacency matrices, rows 256 i … 256 i + 255,
    columns 2048 j … 2048 j + 2047. -/
theorem iblk3_apply (c : Dev nD) (t : Fin cfg0.N) (k : Fin 2) (r : Fin 256) (q : Fin 2048) (R : Fin 4096) (Q : Fin 4096)
    (hR : R.val = 256 * (t.val / 2) + r.val) (hQ : Q.val = 2048 * (t.val % 2) + q.val) :
    (Gen.iblk m c 3 t : S2x256x2048.Idx → Elt F .f32) (ix3 k r q)
      = (m ((c : Thread nD τ).loc main_arg1) : S2x4096x4096.Idx → Elt F .f32) (ix3 k R Q) := by
  have hi : win0_3.index t 0 = 0 ∧ win0_3.index t 1 = t.val / 2 ∧ win0_3.index t 2 = t.val % 2 :=
    (by decide +kernel : ∀ t : Fin grid0.N, win0_3.index t 0 = 0 ∧ win0_3.index t 1 = t.val / 2 ∧ win0_3.index t 2 = t.val % 2) t
  unfold iblk
  rw [View.read_apply]
  show V m c main_arg1 _ = m (c.tc.loc main_arg1) _
  rw [V_main_arg1]
  congr 1
  funext a
  apply Fin.ext
  match a with
  | ⟨0, _⟩ => show win0_3.index t 0 * 2 + 1 * k.val = k.val; rw [hi.1]; omega
  | ⟨1, _⟩ => show win0_3.index t 1 * 256 + 1 * r.val = R.val; rw [hi.2.1, hR]; omega
  | ⟨2, _⟩ => show win0_3.index t 2 * 2048 + 1 * q.val = Q.val; rw [hi.2.2, hQ]; omega

end Cert.KernelIdeal.HostArrays

end
-- ==== Proof.IdealOuts.lean ====
/-
  The output's staging buffer after each point. Each of the three control cases leaves in it one payload of the loads
  the case made: an accumulation step over the two adjacency blocks and the 2048 hidden rows of the point, stored
  (contraction coordinate zero) or added to what the point before left (contraction coordinate one); at the first
  point the hidden rows are read from the scratch the point has just written. Read at an index at the ideal instance,
  under the hypothesis that the scratch holds the two hidden projections, the buffer after a point with contraction
  coordinate zero is the first half of the specification's result for the point's rows, and after the next point the
  whole result.
-/
import proofs.«163337_g50706383897208_cont_sun_m_271_35_alg».proof.Proof.IdealData
import proofs.«163337_g50706383897208_cont_sun_m_271_35_alg».proof.Proof.PayAt
import proofs.«163337_g50706383897208_cont_sun_m_271_35_alg».proof.Proof.HostArrays
import proofs.«163337_g50706383897208_cont_sun_m_271_35_alg».proof.Proof.Spec
import Idealize.ShloMosaic.Lib.Pipeline.Value
import Idealize.ShloMosaic.Lib.Pipeline.FrameBody
import Idealize.ShloMosaic.Lib.Tactic

set_option maxRecDepth 16384

noncomputable section

open scoped BigOperators

namespace Cert.KernelIdeal.OutValue

open Idealize.ShloMosaic Idealize.ShloMosaic.TcCoe Idealize.ShloMosaic.Tactic Idealize.ShloMosaic.ValueIdx Idealize.SL.Sem
open Idealize.ShloMosaic.Pipeline (Dat)
open Cert.KernelIdeal Cert.KernelIdeal.Gen Cert.KernelIdeal.Body

variable {F : FTy → Type} [FloatOps F]

theorem hz : (![0, 0] : Fin 2 → Nat) = fun _ => 0 := funext fun a => by fin_cases a <;> rfl

/-- The rectangle of the first adjacency matrix's rows in the [2,256,2048] block; -/
abbrev R0 : Rect S2x256x2048 := Rect.unit (s := S2x256x2048) ![0, 0, 0] S1x256x2048.size inb_S2x256x2048_S1x256x2048_0_0_0
/-- of the second's. -/
abbrev R1 : Rect S2x256x2048 := Rect.unit (s := S2x256x2048) ![1, 0, 0] S1x256x2048.size inb_S2x256x2048_S1x256x2048_1_0_0
/-- The 2048 rows of the first hidden matrix a point reads; -/
abbrev Q1 (i : grid0.Coords) : Rect S2x4096x64 := Rect.unit (s := S2x4096x64) (k0_off1 i) S1x2048x64.size (k0_off1_inb i)
/-- of the second. -/
abbrev Q2 (i : grid0.Coords) : Rect S2x4096x64 := Rect.unit (s := S2x4096x64) (k0_off2 i) S1x2048x64.size (k0_off2_inb i)

/-- A later point with contraction coordinate zero leaves its products in the output's buffer. -/
theorem outFresh_eq (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : ¬condFirst i) (hc1 : condFresh i) (hc2 : ¬condAdding i)
    (x0 : Vec F S4096x256 .f32) (x1 : Vec F S2x128x64 .f32) (x2 : Vec F S2x1x64 .f32) (x3 : Vec F S2x256x2048 .f32) (xs0 : Vec F S2x4096x64 .f32) :
    outFresh c i arg2 harg2 arg3 harg3 arg4 harg4 arg5 harg5 arg6 harg6 arg7 harg7 hc0 hc1 hc2 x0 x1 x2 x3 xs0
      = Gen.k0_pay3 (View.ld x3 R0) (View.ld xs0 (Q1 i)) (View.ld x3 R1) (View.ld xs0 (Q2 i)) := by
  unfold outFresh
  rw [View.read_writes_eq_canon _ _ _ (coverFresh c i arg2 harg2 arg3 harg3 arg4 harg4 arg5 harg5 arg6 harg6 arg7 harg7 hc0 hc1 hc2 x0 x1 x2 x3 xs0)]
  unfold runFresh
  dsimp only
  try sl_unfold_words
  rw [View.canon_unit_zero hz]
  simp only [View.readAt_eq_ld, harg5.read_unread, harg7.read_unread]
  rfl

/-- A point with contraction coordinate one adds its products to what the output's buffer held. -/
theorem outAdding_eq (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : ¬condFirst i) (hc1 : ¬condFresh i) (hc2 : condAdding i)
    (x0 : Vec F S4096x256 .f32) (x1 : Vec F S2x128x64 .f32) (x2 : Vec F S2x1x64 .f32) (x3 : Vec F S2x256x2048 .f32) (y4 : Vec F S256x64 .f32) (xs0 : Vec F S2x4096x64 .f32) :
    outAdding c i arg2 harg2 arg3 harg3 arg4 harg4 arg5 harg5 arg6 harg6 arg7 harg7 hc0 hc1 hc2 x0 x1 x2 x3 y4 xs0
      = Gen.k0_pay4 (View.ld x3 R0) (View.ld xs0 (Q1 i)) (View.ld x3 R1) (View.ld xs0 (Q2 i)) y4 := by
  unfold outAdding
  rw [View.read_writes_eq_canon _ _ _ (coverAdding c i arg2 harg2 arg3 harg3 arg4 harg4 arg5 harg5 arg6 harg6 arg7 harg7 hc0 hc1 hc2 x0 x1 x2 x3 y4 xs0)]
  unfold runAdding
  dsimp only
  try sl_unfold_words
  rw [View.canon_unit_zero hz]
  simp only [View.readAt_eq_ld, harg5.read_unread, harg6.read_unread, harg7.read_unread, View.ld_unit_zero (S := S256x64) hz]
  rfl

/-- The first point leaves its products in the output's buffer, computed from the scratch rows it has just written. -/
theorem outFirst_eq (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : condFirst i) (hc1 : condFresh i) (hc2 : ¬condAdding i)
    (x0 : Vec F S4096x256 .f32) (x1 : Vec F S2x128x64 .f32) (x2 : Vec F S2x1x64 .f32) (x3 : Vec F S2x256x2048 .f32) :
    outFirst c i arg2 harg2 arg3 harg3 arg4 harg4 arg5 harg5 arg6 harg6 arg7 harg7 hc0 hc1 hc2 x0 x1 x2 x3
      = Gen.k0_pay3 (View.ld x3 R0) (View.ld (soutFirst c i arg2 harg2 arg3 harg3 arg4 harg4 arg5 harg5 arg6 harg6 arg7 harg7 hc0 hc1 hc2 x0 x1 x2 x3) (Q1 i))
          (View.ld x3 R1) (View.ld (soutFirst c i arg2 harg2 arg3 harg3 arg4 harg4 arg5 harg5 arg6 harg6 arg7 harg7 hc0 hc1 hc2 x0 x1 x2 x3) (Q2 i)) := by
  unfold outFirst soutFirst
  rw [View.read_writes_eq_canon _ _ _ (coverFirstO c i arg2 harg2 arg3 harg3 arg4 harg4 arg5 harg5 arg6 harg6 arg7 harg7 hc0 hc1 hc2 x0 x1 x2 x3)]
  rw [View.read_writes_eq_canon _ _ _ (coverFirstS c i arg2 harg2 arg3 harg3 arg4 harg4 arg5 harg5 arg6 harg6 arg7 harg7 hc0 hc1 hc2 x0 x1 x2 x3)]
  unfold runFirst
  dsimp only
  try sl_unfold_words
  rw [View.canon_unit_zero hz]
  simp only [View.readAt_eq_ld, harg5.read_unread, View.read_writes_junk_eq_canon]
  rfl

/-- A load of the first adjacency matrix's rows of a [2,256,2048] block, at an index. -/
theorem ld_R0 (X : Vec F S2x256x2048 .f32) (r : Fin 256) (k : Fin 2048) :
    View.ld X R0 (ix3 (0 : Fin 1) r k) = X (ix3 (0 : Fin 2) r k) := by
  show X _ = X _
  congr 1
  funext a
  apply Fin.ext
  match a with
  | ⟨0, _⟩ => show 0 + 1 * 0 = 0; rfl
  | ⟨1, _⟩ => show 0 + 1 * r.val = r.val; omega
  | ⟨2, _⟩ => show 0 + 1 * k.val = k.val; omega

/-- A load of the second adjacency matrix's rows, at an index. -/
theorem ld_R1 (X : Vec F S2x256x2048 .f32) (r : Fin 256) (k : Fin 2048) :
    View.ld X R1 (ix3 (0 : Fin 1) r k) = X (ix3 (1 : Fin 2) r k) := by
  show X _ = X _
  congr 1
  funext a
  apply Fin.ext
  match a with
  | ⟨0, _⟩ => show 1 + 1 * 0 = 1; rfl
  | ⟨1, _⟩ => show 0 + 1 * r.val = r.val; omega
  | ⟨2, _⟩ => show 0 + 1 * k.val = k.val; omega

/-- A load of 2048 rows of one of the two hidden matrices, at an index, from the three entries of its offset. -/
theorem ld_rows (X : Vec F S2x4096x64 .f32) (off : Fin 3 → Nat) (inb : ∀ a, off a + S1x2048x64.size a ≤ S2x4096x64.size a)
    (h : Fin 2) (K : Fin 4096) (k : Fin 2048) (e : Fin 64) (h0 : off 0 = h.val) (h1 : off 1 + k.val = K.val) (h2 : off 2 = 0) :
    View.ld X (Rect.unit (s := S2x4096x64) off S1x2048x64.size inb) (ix3 (0 : Fin 1) k e) = X (ix3 h K e) := by
  show X _ = X _
  congr 1
  funext a
  apply Fin.ext
  match a with
  | ⟨0, _⟩ => show off 0 + 1 * 0 = h.val; omega
  | ⟨1, _⟩ => show off 1 + 1 * k.val = K.val; omega
  | ⟨2, _⟩ => show off 2 + 1 * e.val = e.val; omega

section AnyInstance
variable (m : (ℓ : Loc nD τ sig) → Buf (Elt F) ℓ)

/-- After a point with contraction coordinate zero the output's buffer holds that point's accumulation step over the
    point's adjacency block and the hidden matrices: at the first point the scratch it reads is the one it wrote. -/
theorem outEven_pay (c : Dev nD) (t : Fin cfg0.N) (he : t.val % 2 = 0) :
    outEven m c t he
      = Gen.k0_pay3 (View.ld (iblk m c 3 t) R0) (View.ld (hidden m c) (Q1 (grid0.coords t)))
          (View.ld (iblk m c 3 t) R1) (View.ld (hidden m c) (Q2 (grid0.coords t))) := by
  unfold outEven
  by_cases h0 : t.val % 32 = 0
  · rw [dif_pos h0, outFirst_eq]
    have ht : t = t0 := Fin.ext (by have h1 := t.isLt; have h2 := N32; show t.val = 0; omega)
    subst ht
    rfl
  · rw [dif_neg h0, outFresh_eq]
    rfl

/-- After a point with contraction coordinate one the buffer holds what the point before left plus this point's step. -/
theorem outOdd_pay (c : Dev nD) (t : Fin cfg0.N) (h1 : t.val % 2 = 1) :
    outAt m c t
      = Gen.k0_pay4 (View.ld (iblk m c 3 t) R0) (View.ld (hidden m c) (Q1 (grid0.coords t)))
          (View.ld (iblk m c 3 t) R1) (View.ld (hidden m c) (Q2 (grid0.coords t)))
          (outEven m c (prev t) (by show (t.val - 1) % 2 = 0; omega)) := by
  unfold outAt
  rw [dif_neg (by omega), outAdding_eq]
  rfl

end AnyInstance

section AtIdeal
variable (m : (ℓ : Loc nD τ sig) → Buf (Elt Ideal) ℓ) (c : Dev nD)

/-- The six argument arrays as launched, as functions on their index sets. -/
abbrev aX : Cert.Spec.SX.Idx → EReal := m ((c : Thread nD τ).loc main_arg0)
abbrev aA : Cert.Spec.SA.Idx → EReal := m ((c : Thread nD τ).loc main_arg1)
abbrev aW1 : Cert.Spec.SW.Idx → EReal := m ((c : Thread nD τ).loc main_arg2)
abbrev aB1 : Cert.Spec.SB.Idx → EReal := m ((c : Thread nD τ).loc main_arg3)
abbrev aW2 : Cert.Spec.SW.Idx → EReal := m ((c : Thread nD τ).loc main_arg4)
abbrev aB2 : Cert.Spec.SB.Idx → EReal := m ((c : Thread nD τ).loc main_arg5)

/-- One accumulation step at point `t` = (i, j), read at row `r` of the block and column `e`, with the scratch at the two
    hidden projections: the half of the specification's result over the contraction indices `E k` = 2048 j + k, at row
    256 i + r. -/
theorem step_apply
    (hH : ∀ (k : Fin 2) (r : Fin 4096) (e : Fin 64), Body.hidden (F := Ideal) m c (ix3 k r e)
      = if k.val = 0 then Cert.Spec.hid1 (aX m c) (aW1 m c) (aB1 m c) r e else Cert.Spec.hid2 (aX m c) (aW2 m c) (aB2 m c) r e)
    (t : Fin cfg0.N) (r : Fin 256) (e : Fin 64) (R : Fin 4096) (hR : R.val = 256 * (t.val / 2) + r.val)
    (E : Fin 2048 → Fin 4096) (hE : ∀ k, (E k).val = 2048 * (t.val % 2) + k.val) :
    Gen.k0_pay3 (F := Ideal) (View.ld (iblk m c 3 t) R0) (View.ld (hidden m c) (Q1 (grid0.coords t)))
        (View.ld (iblk m c 3 t) R1) (View.ld (hidden m c) (Q2 (grid0.coords t))) (ix2 r e)
      = Cert.Spec.part (aX m c) (aA m c) (aW1 m c) (aB1 m c) (aW2 m c) (aB2 m c) E R e := by
  refine (PayAt.pay3_apply _ _ _ _ r e).trans ?_
  unfold Cert.Spec.part
  congr 1
  · refine Finset.sum_congr rfl fun k _ => ?_
    have e1 : View.ld (iblk m c 3 t) R0 (ix3 (0 : Fin 1) r k) = aA m c (ix3 (0 : Fin 2) R (E k)) :=
      (ld_R0 _ r k).trans (HostArrays.iblk3_apply m c t 0 r k R (E k) hR (hE k))
    have e2 : View.ld (hidden m c) (Q1 (grid0.coords t)) (ix3 (0 : Fin 1) k e)
        = Cert.Spec.hid1 (aX m c) (aW1 m c) (aB1 m c) (E k) e :=
      (ld_rows (hidden m c) _ _ (0 : Fin 2) (E k) k e (by rw [off1_eq t]; rfl)
        (by rw [off1_eq t]; show 2048 * (t.val % 2) + k.val = (E k).val; rw [hE k]) (by rw [off1_eq t]; rfl)).trans
        ((hH 0 (E k) e).trans (if_pos rfl))
    exact congrArg₂ (· * ·) e1 e2
  · refine Finset.sum_congr rfl fun k _ => ?_
    have e1 : View.ld (iblk m c 3 t) R1 (ix3 (0 : Fin 1) r k) = aA m c (ix3 (1 : Fin 2) R (E k)) :=
      (ld_R1 _ r k).trans (HostArrays.iblk3_apply m c t 1 r k R (E k) hR (hE k))
    have e2 : View.ld (hidden m c) (Q2 (grid0.coords t)) (ix3 (0 : Fin 1) k e)
        = Cert.Spec.hid2 (aX m c) (aW2 m c) (aB2 m c) (E k) e :=
      (ld_rows (hidden m c) _ _ (1 : Fin 2) (E k) k e (by rw [off2_eq t]; rfl)
        (by rw [off2_eq t]; show 2048 * (t.val % 2) + k.val = (E k).val; rw [hE k]) (by rw [off2_eq t]; rfl)).trans
        ((hH 1 (E k) e).trans (if_neg (by decide)))
    exact congrArg₂ (· * ·) e1 e2

/-- After a point with contraction coordinate zero the buffer holds, at row `r` and column `e`, the first half of the
    result for row 256 i + r. -/
theorem outEven_apply
    (hH : ∀ (k : Fin 2) (r : Fin 4096) (e : Fin 64), Body.hidden (F := Ideal) m c (ix3 k r e)
      = if k.val = 0 then Cert.Spec.hid1 (aX m c) (aW1 m c) (aB1 m c) r e else Cert.Spec.hid2 (aX m c) (aW2 m c) (aB2 m c) r e)
    (t : Fin cfg0.N) (he : t.val % 2 = 0) (r : Fin 256) (e : Fin 64) (R : Fin 4096) (hR : R.val = 256 * (t.val / 2) + r.val) :
    Body.outEven (F := Ideal) m c t he (ix2 r e)
      = Cert.Spec.part (aX m c) (aA m c) (aW1 m c) (aB1 m c) (aW2 m c) (aB2 m c) Cert.Spec.lo R e := by
  rw [outEven_pay]
  exact step_apply m c hH t r e R hR Cert.Spec.lo (fun k => by show k.val = 2048 * (t.val % 2) + k.val; omega)

/-- After the point with contraction coordinate one that follows it the buffer holds the whole result for those rows. -/
theorem outAt_apply
    (hH : ∀ (k : Fin 2) (r : Fin 4096) (e : Fin 64), Body.hidden (F := Ideal) m c (ix3 k r e)
      = if k.val = 0 then Cert.Spec.hid1 (aX m c) (aW1 m c) (aB1 m c) r e else Cert.Spec.hid2 (aX m c) (aW2 m c) (aB2 m c) r e)
    (t : Fin cfg0.N) (h1 : t.val % 2 = 1) (r : Fin 256) (e : Fin 64) (R : Fin 4096) (hR : R.val = 256 * (t.val / 2) + r.val) :
    Body.outAt (F := Ideal) m c t (ix2 r e)
      = Cert.Spec.GK (aX m c) (aA m c) (aW1 m c) (aB1 m c) (aW2 m c) (aB2 m c) (ix2 R e) := by
  rw [outOdd_pay m c t h1]
  refine (PayAt.pay4_apply _ _ _ _ _ r e).trans ?_
  have ea := outEven_apply m c hH (prev t) (by show (t.val - 1) % 2 = 0; omega) r e R
    (by show R.val = 256 * ((t.val - 1) / 2) + r.val; rw [hR]; omega)
  have eb := step_apply m c hH t r e R hR Cert.Spec.hi (fun k => by show 2048 + k.val = 2048 * (t.val % 2) + k.val; omega)
  unfold Cert.Spec.GK
  exact congrArg₂ (· + ·) ea eb

end AtIdeal

end Cert.KernelIdeal.OutValue

end
-- ==== Proof.SpecLaw.lean ====
/-
  The two arrangements of the contraction agree.

  A sum over the 4096 contraction indices is the sum over the first 2048 (the indices lo k) plus the sum over the
  last 2048 (the indices hi k).  With A_j, B_j the two adjacency products over half j, the half-by-half result is
  (A0 + B0) + (A1 + B1) and the whole-contraction result is (A0 + A1) + (B0 + B1); they agree because addition on the
  extended reals is commutative and associative.  No finiteness is used.
-/
import proofs.«163337_g50706383897208_cont_sun_m_271_35_alg».proof.Proof.Spec
import Mathlib.Algebra.BigOperators.Fin

noncomputable section

open scoped BigOperators

namespace Cert.Spec

open Idealize.ShloMosaic Idealize.ShloMosaic.ValueIdx

/-- A sum over the whole contraction splits into the sum over its first half and the sum over its second half. -/
theorem sum_lo_hi (f : Fin 4096 → EReal) :
    (∑ k : Fin 4096, f k) = (∑ k : Fin 2048, f (lo k)) + (∑ k : Fin 2048, f (hi k)) := by
  have h := Fin.sum_univ_add (a := 2048) (b := 2048) (f := (f : Fin (2048 + 2048) → EReal))
  have hlo : ∀ k : Fin 2048, (Fin.castAdd 2048 k : Fin (2048 + 2048)) = lo k := fun k => Fin.ext rfl
  have hhi : ∀ k : Fin 2048, (Fin.natAdd 2048 k : Fin (2048 + 2048)) = hi k := fun k => Fin.ext rfl
  simp only [hlo, hhi] at h
  exact h

/-- The result accumulated half by half is the result over the whole contraction. -/
theorem GK_eq_G (x : SX.Idx → EReal) (adjs : SA.Idx → EReal) (W1 : SW.Idx → EReal) (b1 : SB.Idx → EReal)
    (W2 : SW.Idx → EReal) (b2 : SB.Idx → EReal) :
    GK x adjs W1 b1 W2 b2 = G x adjs W1 b1 W2 b2 := by
  funext i
  unfold GK G part
  rw [sum_lo_hi (fun k => adjs (ix3 (0 : Fin 2) (i 0) k) * hid1 x W1 b1 k (i 1)),
    sum_lo_hi (fun k => adjs (ix3 (1 : Fin 2) (i 0) k) * hid2 x W2 b2 k (i 1))]
  exact add_add_add_comm _ _ _ _

end Cert.Spec

end
-- ==== Proof.IdealFinal.lean ====
/-
  From the blocks to the whole result array. The output window writes its block back exactly after the points with
  contraction coordinate one; the block written back after point (i, 1) is rows 256 i … 256 i + 255 of the result
  accumulated half by half, and those blocks cover all 4096 rows, so the array ends holding that result, which is the
  specification's (the two arrangements of the contraction agree).
-/
import proofs.«163337_g50706383897208_cont_sun_m_271_35_alg».proof.Proof.IdealOuts
import proofs.«163337_g50706383897208_cont_sun_m_271_35_alg».proof.Proof.SpecLaw
import Idealize.ShloMosaic.Lib.Pipeline.Value
import Idealize.ShloMosaic.Lib.Tactic

set_option maxRecDepth 16384

noncomputable section

open scoped BigOperators

namespace Cert.KernelIdeal.FinalValue

open Idealize.ShloMosaic Idealize.ShloMosaic.TcCoe Idealize.ShloMosaic.Tactic Idealize.ShloMosaic.ValueIdx Idealize.SL.Sem
open Idealize.ShloMosaic.Pipeline (Dat)
open Cert.KernelIdeal Cert.KernelIdeal.Gen Cert.KernelIdeal.Body Cert.KernelIdeal.OutValue

variable (m : (ℓ : Loc nD τ sig) → Buf (Elt Ideal) ℓ) (c : Dev nD)

/-- The output window's block index at point `t` = (i, j): block row i, the one block column. -/
theorem idx4 : ∀ t : Fin cfg0.N, win0_4.index t 0 = t.val / 2 ∧ win0_4.index t 1 = 0 :=
  (by decide +kernel : ∀ t : Fin grid0.N, win0_4.index t 0 = t.val / 2 ∧ win0_4.index t 1 = 0)

/-- After a point with contraction coordinate one the buffer holds, at any index of the block, the result at the array
    index with the block's rows moved down to 256 i. -/
theorem outAt_idx (hH : ∀ (k : Fin 2) (r : Fin 4096) (e : Fin 64), Body.hidden (F := Ideal) m c (ix3 k r e)
      = if k.val = 0 then Cert.Spec.hid1 (aX m c) (aW1 m c) (aB1 m c) r e else Cert.Spec.hid2 (aX m c) (aW2 m c) (aB2 m c) r e)
    (t : Fin cfg0.N) (h1 : t.val % 2 = 1) (y : S256x64.Idx) (Y : S4096x64.Idx)
    (h0 : (Y 0).val = 256 * (t.val / 2) + (y 0).val) (hc : (Y 1).val = (y 1).val) :
    Body.outAt (F := Ideal) m c t y = Cert.Spec.GK (aX m c) (aA m c) (aW1 m c) (aB1 m c) (aW2 m c) (aB2 m c) Y := by
  have key := outAt_apply m c hH t h1 (y 0) (y 1) (Y 0) h0
  have e1 : (ix2 (Y 0) (y 1) : S4096x64.Idx) = Y := by
    funext a
    match a with
    | ⟨0, _⟩ => rfl
    | ⟨1, _⟩ => exact Fin.ext hc.symm
  rw [e1] at key
  exact (congrArg (Body.outAt (F := Ideal) m c t) (eq_ix2 y)).trans key

/-- What a point with contraction coordinate one writes back is its block of the result accumulated half by half. -/
theorem flushed_eq (hH : ∀ (k : Fin 2) (r : Fin 4096) (e : Fin 64), Body.hidden (F := Ideal) m c (ix3 k r e)
      = if k.val = 0 then Cert.Spec.hid1 (aX m c) (aW1 m c) (aB1 m c) r e else Cert.Spec.hid2 (aX m c) (aW2 m c) (aB2 m c) r e)
    (t : Fin cfg0.N) (hf : (cfg0.win 4).flush t = true) :
    (Body.dats m 0 c).flushed 4 t = ((cfg0.win 4).blk t).view.read (Elt Ideal) (Cert.Spec.GK (aX m c) (aA m c) (aW1 m c) (aB1 m c) (aW2 m c) (aB2 m c) : S4096x64.Idx → EReal) := by
  have h1 : t.val % 2 = 1 := (flush0_4 t).mp hf
  obtain ⟨i0, i1⟩ := idx4 t
  show (cfg0.win 4).cut (grid0.coords t) ((Body.dats m 0 c).after 4 t) = _
  rw [Body.after4]
  funext j
  rw [View.read_apply]
  refine outAt_idx m c hH t h1 _ _ ?_ ?_
  · show win0_4.index t 0 * 256 + 1 * (j 0).val = 256 * (t.val / 2) + (j 0).val
    rw [i0]; omega
  · show win0_4.index t 1 * 64 + 1 * (j 1).val = (j 1).val
    rw [i1]; omega

/-- An index of the result array is in point `t`'s block iff each coordinate is in the block's range on its axis. -/
theorem mem_blk4 (t : Fin cfg0.N) (i : S4096x64.Idx) :
    i ∈ ((cfg0.win 4).blk t).view.set ↔ ∀ a : Fin 2, win0_4.index t a * S256x64.size a ≤ (i a).val
      ∧ (i a).val < win0_4.index t a * S256x64.size a + S256x64.size a := by
  show i ∈ ((View.whole main_v7).slice (win0_4.rect t)).set ↔ _
  rw [View.set_slice_whole, Rect.mem_set_unit]
  exact Iff.rfl

/-- Every row of the result array is in the block some point with contraction coordinate one writes back: row R in
    that of the point (R / 256, 1). -/
theorem cover (i : S4096x64.Idx) :
    ∃ t : Fin cfg0.N, (cfg0.win 4).flush t = true ∧ i ∈ ((cfg0.win 4).blk t).view.set := by
  have hi0 : (i 0).val < 4096 := (i 0).isLt
  have hi1 : (i 1).val < 64 := (i 1).isLt
  have hN := N32
  have hlt : 2 * ((i 0).val / 256) + 1 < cfg0.N := by omega
  obtain ⟨e0, e1⟩ := idx4 ⟨2 * ((i 0).val / 256) + 1, hlt⟩
  refine ⟨⟨2 * ((i 0).val / 256) + 1, hlt⟩, (flush0_4 _).mpr (by show (2 * ((i 0).val / 256) + 1) % 2 = 1; omega), ?_⟩
  rw [mem_blk4]
  intro a
  match a with
  | ⟨0, _⟩ =>
    show win0_4.index ⟨2 * ((i 0).val / 256) + 1, hlt⟩ 0 * 256 ≤ (i 0).val
      ∧ (i 0).val < win0_4.index ⟨2 * ((i 0).val / 256) + 1, hlt⟩ 0 * 256 + 256
    rw [e0]; show (2 * ((i 0).val / 256) + 1) / 2 * 256 ≤ (i 0).val ∧ (i 0).val < (2 * ((i 0).val / 256) + 1) / 2 * 256 + 256
    omega
  | ⟨1, _⟩ =>
    show win0_4.index ⟨2 * ((i 0).val / 256) + 1, hlt⟩ 1 * 64 ≤ (i 1).val
      ∧ (i 1).val < win0_4.index ⟨2 * ((i 0).val / 256) + 1, hlt⟩ 1 * 64 + 64
    rw [e1]; omega

/-- So the result array ends holding the specification's result. -/
theorem final (hH : ∀ (k : Fin 2) (r : Fin 4096) (e : Fin 64), Body.hidden (F := Ideal) m c (ix3 k r e)
      = if k.val = 0 then Cert.Spec.hid1 (aX m c) (aW1 m c) (aB1 m c) r e else Cert.Spec.hid2 (aX m c) (aW2 m c) (aB2 m c) r e) :
    (Body.dats m 0 c).arrAt 4 cfg0.N = Cert.Spec.G (aX m c) (aA m c) (aW1 m c) (aB1 m c) (aW2 m c) (aB2 m c) :=
  ((Body.dats m 0 c).arrAt_eq_of_cover 4 (Cert.Spec.GK (aX m c) (aA m c) (aW1 m c) (aB1 m c) (aW2 m c) (aB2 m c)) (fun t hf => flushed_eq m c hH t hf) cover).trans
    (Cert.Spec.GK_eq_G (aX m c) (aA m c) (aW1 m c) (aB1 m c) (aW2 m c) (aB2 m c))

end Cert.KernelIdeal.FinalValue

end
-- ==== Proof.IdealHidden.lean ====
/-
  The scratch after the first grid point holds the two hidden projections.

  The first point stores two pieces into the scratch [2,4096,64]: slice 0 is the first hidden projection of the
  point's blocks and slice 1 the second, each computed from the whole block of x and from slice 0 (slice 1) of the
  stacked weights and of the stacked biases.  Read back at (k, r, e): for k = 0 the piece stored at offset (0,0,0) at
  (0, r, e), for k = 1 the piece stored at offset (1,0,0) at (0, r, e).  At the ideal instance each is a sum of 128
  products plus a bias; the point's blocks are the whole arrays, the stacked arrays' slices are the two weight matrices
  and the two bias vectors, so entry (k, r, e) is hid1 at (r, e) for k = 0 and hid2 at (r, e) for k = 1.
-/
import proofs.«163337_g50706383897208_cont_sun_m_271_35_alg».proof.Proof.IdealData
import proofs.«163337_g50706383897208_cont_sun_m_271_35_alg».proof.Proof.PayAt
import proofs.«163337_g50706383897208_cont_sun_m_271_35_alg».proof.Proof.HostArrays
import proofs.«163337_g50706383897208_cont_sun_m_271_35_alg».proof.Proof.Spec

set_option maxRecDepth 16384

noncomputable section

open scoped BigOperators

namespace Cert.KernelIdeal.HiddenValue

open Idealize.ShloMosaic Idealize.ShloMosaic.TcCoe Idealize.ShloMosaic.Tactic Idealize.ShloMosaic.ValueIdx Idealize.SL.Sem
open Cert.KernelIdeal Cert.KernelIdeal.Gen Cert.KernelIdeal.Body

variable {F : FTy → Type} [FloatOps F]

theorem hz2 : (![0, 0] : Fin 2 → Nat) = fun _ => 0 := funext fun a => by fin_cases a <;> rfl

/-! ## The two stored rectangles of the scratch -/

/-- Index (0, r, e) of the slice stored at offset (0,0,0) is index (0, r, e) of the scratch. -/
theorem emb_lo (r : Fin 4096) (e : Fin 64) :
    (Rect.unit (s := S2x4096x64) ![0, 0, 0] S1x4096x64.size inb_S2x4096x64_S1x4096x64_0_0_0).emb (ix3 (0 : Fin 1) r e)
      = ix3 (0 : Fin 2) r e :=
  funext fun a => Fin.ext (by
    match a with
    | ⟨0, _⟩ => rfl
    | ⟨1, _⟩ => show 0 + 1 * r.val = r.val; omega
    | ⟨2, _⟩ => show 0 + 1 * e.val = e.val; omega)

/-- Index (0, r, e) of the slice stored at offset (1,0,0) is index (1, r, e) of the scratch. -/
theorem emb_hi (r : Fin 4096) (e : Fin 64) :
    (Rect.unit (s := S2x4096x64) ![1, 0, 0] S1x4096x64.size inb_S2x4096x64_S1x4096x64_1_0_0).emb (ix3 (0 : Fin 1) r e)
      = ix3 (1 : Fin 2) r e :=
  funext fun a => Fin.ext (by
    match a with
    | ⟨0, _⟩ => rfl
    | ⟨1, _⟩ => show 0 + 1 * r.val = r.val; omega
    | ⟨2, _⟩ => show 0 + 1 * e.val = e.val; omega)

/-- An index with leading coordinate 0 is outside the slice stored at offset (1,0,0). -/
theorem lo_not_mem_hi (r : Fin 4096) (e : Fin 64) :
    ix3 (0 : Fin 2) r e ∉ (Rect.unit (s := S2x4096x64) ![1, 0, 0] S1x4096x64.size inb_S2x4096x64_S1x4096x64_1_0_0).set := by
  rw [Rect.mem_set_unit]
  intro h
  exact absurd (show (1 : Nat) ≤ 0 from (h 0).1) (by decide)

/-! ## The scratch read back, for any float instance -/

/-- Slice 0 of what the first point leaves in the scratch is the first payload of the point's blocks. -/
theorem soutFirst_apply_lo (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : condFirst i) (hc1 : condFresh i) (hc2 : ¬condAdding i) (x0 : Vec F S4096x256 .f32) (x1 : Vec F S2x128x64 .f32) (x2 : Vec F S2x1x64 .f32) (x3 : Vec F S2x256x2048 .f32) (r : Fin 4096) (e : Fin 64) :
    soutFirst c i arg2 harg2 arg3 harg3 arg4 harg4 arg5 harg5 arg6 harg6 arg7 harg7 hc0 hc1 hc2 x0 x1 x2 x3 (ix3 (0 : Fin 2) r e)
      = k0_pay1 x0 (View.ld x1 (Rect.unit ![0, 0, 0] S1x128x64.size inb_S2x128x64_S1x128x64_0_0_0))
          (View.ld x2 (Rect.unit ![0, 0, 0] S1x1x64.size inb_S2x1x64_S1x1x64_0_0_0)) (ix3 (0 : Fin 1) r e) := by
  unfold soutFirst
  rw [View.read_writes_eq_canon _ _ _ (coverFirstS c i arg2 harg2 arg3 harg3 arg4 harg4 arg5 harg5 arg6 harg6 arg7 harg7 hc0 hc1 hc2 x0 x1 x2 x3)]
  unfold runFirst
  dsimp only
  try sl_unfold_words
  refine (View.canon_cons_of_not_mem _ _ ?_).trans ?_
  · exact lo_not_mem_hi r e
  rw [← emb_lo r e, View.canon_cons_emb]
  simp only [View.readAt_eq_ld, harg2.read_unread, harg3.read_unread, harg4.read_unread, View.ld_unit_zero (S := S4096x256) hz2]

/-- Slice 1 of what the first point leaves in the scratch is the second payload of the point's blocks. -/
theorem soutFirst_apply_hi (c : Dev nD) (i : grid0.Coords) (arg2 : Memref sig .tc .vmem S4096x256 .f32) (harg2 : arg2.IsWhole) (arg3 : Memref sig .tc .vmem S2x128x64 .f32) (harg3 : arg3.IsWhole) (arg4 : Memref sig .tc .vmem S2x1x64 .f32) (harg4 : arg4.IsWhole) (arg5 : Memref sig .tc .vmem S2x256x2048 .f32) (harg5 : arg5.IsWhole) (arg6 : Memref sig .tc .vmem S256x64 .f32) (harg6 : arg6.IsWhole) (arg7 : Memref sig .tc .vmem S2x4096x64 .f32) (harg7 : arg7.IsWhole) (hc0 : condFirst i) (hc1 : condFresh i) (hc2 : ¬condAdding i) (x0 : Vec F S4096x256 .f32) (x1 : Vec F S2x128x64 .f32) (x2 : Vec F S2x1x64 .f32) (x3 : Vec F S2x256x2048 .f32) (r : Fin 4096) (e : Fin 64) :
    soutFirst c i arg2 harg2 arg3 harg3 arg4 harg4 arg5 harg5 arg6 harg6 arg7 harg7 hc0 hc1 hc2 x0 x1 x2 x3 (ix3 (1 : Fin 2) r e)
      = k0_pay2 x0 (View.ld x1 (Rect.unit ![1, 0, 0] S1x128x64.size inb_S2x128x64_S1x128x64_1_0_0))
          (View.ld x2 (Rect.unit ![1, 0, 0] S1x1x64.size inb_S2x1x64_S1x1x64_1_0_0)) (ix3 (0 : Fin 1) r e) := by
  unfold soutFirst
  rw [View.read_writes_eq_canon _ _ _ (coverFirstS c i arg2 harg2 arg3 harg3 arg4 harg4 arg5 harg5 arg6 harg6 arg7 harg7 hc0 hc1 hc2 x0 x1 x2 x3)]
  unfold runFirst
  dsimp only
  try sl_unfold_words
  rw [← emb_hi r e, View.canon_cons_emb]
  simp only [View.readAt_eq_ld, harg2.read_unread, harg3.read_unread, harg4.read_unread, View.ld_unit_zero (S := S4096x256) hz2]

/-! ## The loads of the stacked arrays' slices, at an index -/

/-- Slice 0 of the stacked weights read at (0, d, e) is the array at (0, d, e). -/
theorem ld_w_lo (X : Vec F S2x128x64 .f32) (d : Fin 128) (e : Fin 64) :
    View.ld X (Rect.unit ![0, 0, 0] S1x128x64.size inb_S2x128x64_S1x128x64_0_0_0) (ix3 (0 : Fin 1) d e) = X (ix3 (0 : Fin 2) d e) := by
  show X _ = X _
  congr 1
  funext a
  apply Fin.ext
  match a with
  | ⟨0, _⟩ => rfl
  | ⟨1, _⟩ => show 0 + 1 * d.val = d.val; omega
  | ⟨2, _⟩ => show 0 + 1 * e.val = e.val; omega

/-- Slice 1 of the stacked weights read at (0, d, e) is the array at (1, d, e). -/
theorem ld_w_hi (X : Vec F S2x128x64 .f32) (d : Fin 128) (e : Fin 64) :
    View.ld X (Rect.unit ![1, 0, 0] S1x128x64.size inb_S2x128x64_S1x128x64_1_0_0) (ix3 (0 : Fin 1) d e) = X (ix3 (1 : Fin 2) d e) := by
  show X _ = X _
  congr 1
  funext a
  apply Fin.ext
  match a with
  | ⟨0, _⟩ => rfl
  | ⟨1, _⟩ => show 0 + 1 * d.val = d.val; omega
  | ⟨2, _⟩ => show 0 + 1 * e.val = e.val; omega

/-- Slice 0 of the stacked biases read at (0, 0, e) is the array at (0, 0, e). -/
theorem ld_b_lo (X : Vec F S2x1x64 .f32) (e : Fin 64) :
    View.ld X (Rect.unit ![0, 0, 0] S1x1x64.size inb_S2x1x64_S1x1x64_0_0_0) (ix3 (0 : Fin 1) (0 : Fin 1) e) = X (ix3 (0 : Fin 2) (0 : Fin 1) e) := by
  show X _ = X _
  congr 1
  funext a
  apply Fin.ext
  match a with
  | ⟨0, _⟩ => rfl
  | ⟨1, _⟩ => rfl
  | ⟨2, _⟩ => show 0 + 1 * e.val = e.val; omega

/-- Slice 1 of the stacked biases read at (0, 0, e) is the array at (1, 0, e). -/
theorem ld_b_hi (X : Vec F S2x1x64 .f32) (e : Fin 64) :
    View.ld X (Rect.unit ![1, 0, 0] S1x1x64.size inb_S2x1x64_S1x1x64_1_0_0) (ix3 (0 : Fin 1) (0 : Fin 1) e) = X (ix3 (1 : Fin 2) (0 : Fin 1) e) := by
  show X _ = X _
  congr 1
  funext a
  apply Fin.ext
  match a with
  | ⟨0, _⟩ => rfl
  | ⟨1, _⟩ => rfl
  | ⟨2, _⟩ => show 0 + 1 * e.val = e.val; omega

/-! ## The scratch after the first point, at the ideal instance -/

/-- Slice 0 of the scratch after the first point is the first hidden projection of the arguments. -/
theorem hidden_lo (m : (ℓ : Loc nD τ sig) → Buf (Elt Ideal) ℓ) (c : Dev nD) (r : Fin 4096) (e : Fin 64) :
    Body.hidden (F := Ideal) m c (ix3 (0 : Fin 2) r e)
      = Cert.Spec.hid1 (m ((c : Thread nD τ).loc main_arg0)) (m ((c : Thread nD τ).loc main_arg2)) (m ((c : Thread nD τ).loc main_arg3)) r e := by
  unfold Body.hidden
  rw [soutFirst_apply_lo, PayAt.pay1_apply]
  unfold Cert.Spec.hid1
  congr 1
  · refine Finset.sum_congr rfl fun d _ => ?_
    rw [HostArrays.iblk0_apply, ld_w_lo, HostArrays.iblk1_apply, HostArrays.V_v2_apply, if_pos (by decide)]
  · rw [ld_b_lo, HostArrays.iblk2_apply, HostArrays.V_v6_apply, if_pos (by decide)]

/-- Slice 1 of the scratch after the first point is the second hidden projection of the arguments. -/
theorem hidden_hi (m : (ℓ : Loc nD τ sig) → Buf (Elt Ideal) ℓ) (c : Dev nD) (r : Fin 4096) (e : Fin 64) :
    Body.hidden (F := Ideal) m c (ix3 (1 : Fin 2) r e)
      = Cert.Spec.hid2 (m ((c : Thread nD τ).loc main_arg0)) (m ((c : Thread nD τ).loc main_arg4)) (m ((c : Thread nD τ).loc main_arg5)) r e := by
  unfold Body.hidden
  rw [soutFirst_apply_hi, PayAt.pay2_apply]
  unfold Cert.Spec.hid2
  congr 1
  · refine Finset.sum_congr rfl fun d _ => ?_
    rw [HostArrays.iblk0_apply, ld_w_hi, HostArrays.iblk1_apply, HostArrays.V_v2_apply, if_neg (by decide)]
  · rw [ld_b_hi, HostArrays.iblk2_apply, HostArrays.V_v6_apply, if_neg (by decide)]

/-- The scratch after the first point at (k, r, e): the first hidden projection for k = 0, the second for k = 1. -/
theorem hidden_apply (m : (ℓ : Loc nD τ sig) → Buf (Elt Ideal) ℓ) (c : Dev nD) (k : Fin 2) (r : Fin 4096) (e : Fin 64) :
    Body.hidden (F := Ideal) m c (ix3 k r e)
      = if k.val = 0 then Cert.Spec.hid1 (m ((c : Thread nD τ).loc main_arg0)) (m ((c : Thread nD τ).loc main_arg2)) (m ((c : Thread nD τ).loc main_arg3)) r e
        else Cert.Spec.hid2 (m ((c : Thread nD τ).loc main_arg0)) (m ((c : Thread nD τ).loc main_arg4)) (m ((c : Thread nD τ).loc main_arg5)) r e := by
  by_cases hk : k.val = 0
  · obtain rfl : k = 0 := Fin.ext hk
    rw [if_pos hk]
    exact hidden_lo m c r e
  · obtain rfl : k = 1 := Fin.ext (by have := k.isLt; show k.val = 1; omega)
    rw [if_neg (by decide)]
    exact hidden_hi m c r e

end Cert.KernelIdeal.HiddenValue

end
-- ==== Proof.IdealRun.lean ====
/-
  The idealized kernel's run, read as the specification.

  Every weakly fair execution of the idealized kernel terminates with each array of the pipeline at what the proof data
  compute and every other buffer as the region found it.  The result array is the output window's: its blocks, written
  back after the points with contraction coordinate one, cover it and hold the specification's result, given that the
  scratch holds the two hidden projections after the first point, which it does.  The six argument arrays are inputs the
  kernel never writes: two are staged by windows and end at their entry contents, the other four are staged by no window
  and are left as found.
-/
import proofs.«163337_g50706383897208_cont_sun_m_271_35_alg».proof.Proof.IdealFrame
import proofs.«163337_g50706383897208_cont_sun_m_271_35_alg».proof.Proof.IdealFinal
import proofs.«163337_g50706383897208_cont_sun_m_271_35_alg».proof.Proof.IdealHidden

set_option maxRecDepth 16384

noncomputable section

namespace Cert.KernelIdeal.RunValue

open Idealize.ShloMosaic Idealize.ShloMosaic.TcCoe Idealize.ShloMosaic.ValueIdx Idealize.SL.Sem
open Idealize.ShloMosaic.Pipeline (Dat)
open Cert.KernelIdeal Cert.KernelIdeal.Gen

/-- On every device, from any memory with zero counters, every weakly fair execution of the idealized kernel terminates
    with its result at the specification's function of the arguments' launch contents, and the arguments unchanged. -/
theorem run_G (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v7) = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 4).trans (FinalValue.final m c (HiddenValue.hidden_apply m c)),
      ((h c).1 0).trans (((Body.dats m 0 c).arrAt_in 0 rfl _).trans ((Body.A_eq m c 0).trans (V_main_arg0 m c))),
      ((h c).1 3).trans (((Body.dats m 0 c).arrAt_in 3 rfl _).trans ((Body.A_eq m c 3).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (Body.run_main m ρ)

end Cert.KernelIdeal.RunValue

end
-- ==== Proof.RefIsG.lean ====
/-
  The reference program computes the specification.

  Read at an index, the reference's two hidden matrices are the specification's: entry (k, c) of the first is the sum over
  d < 128 of x (k, d) * W1 (d, c) plus b1 c, and of the second the same with column 128 + d of x, W2 and b2.  Its result
  at (r, c) is the sum over k < 4096 of adjs (0, r, k) times the first hidden matrix at (k, c), plus the same sum with
  adjs (1, r, k) and the second hidden matrix: the function G of the six argument arrays.  Only the meaning of each
  operation at an index is used; nothing about finiteness.
-/
import proofs.«163337_g50706383897208_cont_sun_m_271_35_alg».proof.Proof.Gen.ReferenceIdeal.Read
import proofs.«163337_g50706383897208_cont_sun_m_271_35_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The reference's first hidden matrix at row `k`, column `c` is the specification's. -/
theorem hidden1_apply (x0 : (⟨S4096x256, .f32⟩ : BufTy).Contents (Elt Ideal)) (x2 : (⟨S128x64, .f32⟩ : BufTy).Contents (Elt Ideal))
    (x3 : (⟨S64, .f32⟩ : BufTy).Contents (Elt Ideal)) (k : Fin 4096) (c : Fin 64) :
    Read.val_main_v5 (F := Ideal) x0 x2 x3 (ix2 k c) = Cert.Spec.hid1 x0 x2 x3 k c := by
  rw [val_main_v5_apply, val_main_v2_apply, val_main_v4_apply, val_main_v3_apply, Ideal.addf_def]
  unfold Cert.Spec.hid1
  have eb : idx_main_v3 (idx_main_v4 (ix2 k c)) = ix1 c :=
    funext fun a => Fin.ext (by match a with | ⟨0, _⟩ => rfl)
  rw [eb]
  congr 1
  refine Finset.sum_congr rfl fun d _ => ?_
  have el : idx_main_v0 (lidx_main_v2 (ix2 k c) d) = ix2 k (Cert.Spec.colL d) :=
    funext fun a => Fin.ext (by match a with | ⟨0, _⟩ => rfl | ⟨1, _⟩ => rfl)
  have er : ridx_main_v2 (ix2 k c) d = ix2 d c :=
    funext fun a => Fin.ext (by match a with | ⟨0, _⟩ => rfl | ⟨1, _⟩ => rfl)
  rw [val_main_v0_apply, el, er]

/-- The reference's second hidden matrix at row `k`, column `c` is the specification's. -/
theorem hidden2_apply (x0 : (⟨S4096x256, .f32⟩ : BufTy).Contents (Elt Ideal)) (x4 : (⟨S128x64, .f32⟩ : BufTy).Contents (Elt Ideal))
    (x5 : (⟨S64, .f32⟩ : BufTy).Contents (Elt Ideal)) (k : Fin 4096) (c : Fin 64) :
    Read.val_main_v9 (F := Ideal) x0 x4 x5 (ix2 k c) = Cert.Spec.hid2 x0 x4 x5 k c := by
  rw [val_main_v9_apply, val_main_v6_apply, val_main_v8_apply, val_main_v7_apply, Ideal.addf_def]
  unfold Cert.Spec.hid2
  have eb : idx_main_v7 (idx_main_v8 (ix2 k c)) = ix1 c :=
    funext fun a => Fin.ext (by match a with | ⟨0, _⟩ => rfl)
  rw [eb]
  congr 1
  refine Finset.sum_congr rfl fun d _ => ?_
  have el : idx_main_v1 (lidx_main_v6 (ix2 k c) d) = ix2 k (Cert.Spec.colR d) :=
    funext fun a => Fin.ext (by match a with | ⟨0, _⟩ => rfl | ⟨1, _⟩ => rfl)
  have er : ridx_main_v6 (ix2 k c) d = ix2 d c :=
    funext fun a => Fin.ext (by match a with | ⟨0, _⟩ => rfl | ⟨1, _⟩ => rfl)
  rw [val_main_v1_apply, el, er]

/-- The reference's result is the specification's function of the six argument arrays. -/
theorem result_eq (x0 : (⟨S4096x256, .f32⟩ : BufTy).Contents (Elt Ideal)) (x1 : (⟨S2x4096x4096, .f32⟩ : BufTy).Contents (Elt Ideal))
    (x2 : (⟨S128x64, .f32⟩ : BufTy).Contents (Elt Ideal)) (x3 : (⟨S64, .f32⟩ : BufTy).Contents (Elt Ideal))
    (x4 : (⟨S128x64, .f32⟩ : BufTy).Contents (Elt Ideal)) (x5 : (⟨S64, .f32⟩ : BufTy).Contents (Elt Ideal)) :
    Read.val_main_v16 (F := Ideal) x0 x1 x2 x3 x4 x5 = Cert.Spec.G x0 x1 x2 x3 x4 x5 := by
  funext i
  obtain ⟨r, c, rfl⟩ : ∃ (r : Fin 4096) (c : Fin 64), i = ix2 r c := ⟨i 0, i 1, eq_ix2 i⟩
  rw [val_main_v16_apply, val_main_v14_apply, val_main_v15_apply, Ideal.addf_def]
  show _ = (∑ k : Fin 4096, x1 (ix3 (0 : Fin 2) r k) * Cert.Spec.hid1 x0 x2 x3 k c)
    + (∑ k : Fin 4096, x1 (ix3 (1 : Fin 2) r k) * Cert.Spec.hid2 x0 x4 x5 k c)
  have hr : r.val < 4096 := r.isLt
  congr 1
  · refine Finset.sum_congr rfl fun k _ => ?_
    have hk : k.val < 4096 := k.isLt
    have ea : idx_main_v10 (idx_main_v11 (lidx_main_v14 (ix2 r c) k)) = ix3 (0 : Fin 2) r k :=
      funext fun a => Fin.ext (by
        match a with
        | ⟨0, _⟩ => rfl
        | ⟨1, _⟩ => show (r.val * 4096 + k.val) / 4096 % 4096 = r.val; omega
        | ⟨2, _⟩ => show (r.val * 4096 + k.val) % 4096 = k.val; omega)
    have eh : ridx_main_v14 (ix2 r c) k = ix2 k c :=
      funext fun a => Fin.ext (by match a with | ⟨0, _⟩ => rfl | ⟨1, _⟩ => rfl)
    rw [val_main_v11_apply, val_main_v10_apply, ea, eh, hidden1_apply]
  · refine Finset.sum_congr rfl fun k _ => ?_
    have hk : k.val < 4096 := k.isLt
    have ea : idx_main_v12 (idx_main_v13 (lidx_main_v15 (ix2 r c) k)) = ix3 (1 : Fin 2) r k :=
      funext fun a => Fin.ext (by
        match a with
        | ⟨0, _⟩ => rfl
        | ⟨1, _⟩ => show (r.val * 4096 + k.val) / 4096 % 4096 = r.val; omega
        | ⟨2, _⟩ => show (r.val * 4096 + k.val) % 4096 = k.val; omega)
    have eh : ridx_main_v15 (ix2 r c) k = ix2 k c :=
      funext fun a => Fin.ext (by match a with | ⟨0, _⟩ => rfl | ⟨1, _⟩ => rfl)
    rw [val_main_v13_apply, val_main_v12_apply, ea, eh, hidden2_apply]

/-- On every device, from any memory with zero counters, every weakly fair execution of the reference terminates with its
    result at the specification's function of the arguments' launch contents, and the arguments unchanged. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = Cert.Spec.G (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c => ⟨(h c).1.trans ((Read.val_main_v16_eq (F := Ideal) _ _ _ _ _ _).trans (result_eq _ _ _ _ _ _)), (h c).2⟩)
    (Cert.ReferenceIdeal.Value.run (F := Ideal) m ρ)

end Cert.ReferenceIdeal.RefValue

end
-- ==== Proof.lean ====
/-
  Both programs compute, from x : [4096, 256], adjs : [2, 4096, 4096], W1, W2 : [128, 64] and b1, b2 : [64],

      out = adjs[0] · (x[:, :128] · W1 + b1) + adjs[1] · (x[:, 128:] · W2 + b2)        : [4096, 64].

  The reference does it with whole matrix products. The kernel walks a 16 x 2 grid: at its first point it writes the two
  hidden matrices x[:, :128] · W1 + b1 and x[:, 128:] · W2 + b2 into a scratch; at point (i, j) it multiplies the
  [256, 2048] blocks (i, j) of the two adjacency matrices with rows 2048 j … 2048 j + 2047 of the two hidden matrices and
  adds the two products; at j = 0 it stores that into the output block i, at j = 1 it adds it to what j = 0 stored. So
  entry (r, c) of the kernel's result is (A0 + B0) + (A1 + B1) where A_j (B_j) is the part of the first (second)
  adjacency product over the contraction indices of half j, and the reference's is (A0 + A1) + (B0 + B1): equal on the
  extended reals because addition there is commutative and associative (no finiteness of the inputs is used).

  The frames: each kernel program terminates without a fault and leaves its arguments unchanged by the body obligation
  proved case by case (first point / contraction coordinate zero / contraction coordinate one) over proof data that
  names what the scratch and the output's staging buffer hold after each point; the reference's frame is its run with
  the result dropped. The ideal pass rewrote nothing, so the idealization conjunct is trivial.
-/
import proofs.«163337_g50706383897208_cont_sun_m_271_35_alg».proof.Defs
import proofs.«163337_g50706383897208_cont_sun_m_271_35_alg».proof.Proof.Gen.Kernel
import proofs.«163337_g50706383897208_cont_sun_m_271_35_alg».proof.Proof.Gen.KernelIdeal
import proofs.«163337_g50706383897208_cont_sun_m_271_35_alg».proof.Proof.Gen.ReferenceIdeal
import proofs.«163337_g50706383897208_cont_sun_m_271_35_alg».proof.Proof.Gen.Pre_finite_inputs
import proofs.«163337_g50706383897208_cont_sun_m_271_35_alg».proof.Proof.KernelFrame
import proofs.«163337_g50706383897208_cont_sun_m_271_35_alg».proof.Proof.IdealRun
import proofs.«163337_g50706383897208_cont_sun_m_271_35_alg».proof.Proof.RefIsG
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Body.frame m ρ

/-- The idealized kernel runs and leaves its arguments unchanged. -/
theorem frame_ideal : Cert.frame_KernelIdeal := fun m ρ _ => Cert.KernelIdeal.Body.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result array at the one specification `Cert.Spec.G` of arguments that agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.RunValue.run_G m ρ, ?_⟩
  refine (θ_run Cert.ReferenceIdeal.defs _ _).mono (fun _ h c => ⟨(h c).1.trans ?_, (h c).2⟩)
    (Cert.ReferenceIdeal.RefValue.run_G m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
